-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x512x1024 : Shape := ⟨4, ![8, 1, 512, 1024]⟩
abbrev S8x1x1x512 : Shape := ⟨4, ![8, 1, 1, 512]⟩
abbrev S1024x1024 : Shape := ⟨2, ![1024, 1024]⟩
abbrev S1024 : Shape := ⟨1, ![1024]⟩
abbrev S_ : Shape := ⟨0, ![]⟩

class Facts : Prop where
  bcast_S_S8x1x512x1024 : S_.BroadcastsInDim S8x1x512x1024 (![] : Fin 0 → Fin S8x1x512x1024.rank)
  reducesTo_S8x1x512x1024_S_d0_1_2_3 : S8x1x512x1024.ReducesTo [0, 1, 2, 3] S_
  h_S_ : 0 < S_.numel
  bcast_S_S8x1x1x512 : S_.BroadcastsInDim S8x1x1x512 (![] : Fin 0 → Fin S8x1x1x512.rank)
  reducesTo_S8x1x1x512_S_d0_1_2_3 : S8x1x1x512.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x1x512x1024 .f32) (main_arg1 : FVec F S8x1x1x512 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S8x1x512x1024 .f32 := Host.absf main_arg0
  let main_cst : FVec F S_ .f32 := constant S_ .f32 0x7F800000#32
  let main_v1 : FVec F S8x1x512x1024 .f32 := broadcastInDim S8x1x512x1024 ![] bcast_S_S8x1x512x1024 main_cst
  let main_v2 : IVec S8x1x512x1024 1 := cmpf .olt main_v0 main_v1
  let main_c : IVec S_ 1 := constantI S_ 1 1#1
  let main_v3 : IVec S_ 1 := (fun x v => Host.reduce IntOp.andi x v reducesTo_S8x1x512x1024_S_d0_1_2_3 h_S_) main_v2 main_c
  let main_v4 : FVec F S8x1x1x512 .f32 := Host.absf main_arg1
  let main_cst_0 : FVec F S_ .f32 := constant S_ .f32 0x7F800000#32
  let main_v5 : FVec F S8x1x1x512 .f32 := broadcastInDim S8x1x1x512 ![] bcast_S_S8x1x1x512 main_cst_0
  let main_v6 : IVec S8x1x1x512 1 := cmpf .olt main_v4 main_v5
  let main_c_1 : IVec S_ 1 := constantI S_ 1 1#1
  let main_v7 : IVec S_ 1 := (fun x v => Host.reduce IntOp.andi x v reducesTo_S8x1x1x512_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x1x512x1024 : Shape := ⟨4, ![8, 1, 512, 1024]⟩
abbrev S8x1x1x512 : Shape := ⟨4, ![8, 1, 1, 512]⟩
abbrev S1024x1024 : Shape := ⟨2, ![1024, 1024]⟩
abbrev S1024 : Shape := ⟨1, ![1024]⟩
abbrev S8x512x1024 : Shape := ⟨3, ![8, 512, 1024]⟩
abbrev S1024x3072 : Shape := ⟨2, ![1024, 3072]⟩
abbrev S3072 : Shape := ⟨1, ![3072]⟩
abbrev S1x3072 : Shape := ⟨2, ![1, 3072]⟩
abbrev S8x1x512 : Shape := ⟨3, ![8, 1, 512]⟩
abbrev S1x512x1024 : Shape := ⟨3, ![1, 512, 1024]⟩
abbrev S1x1x512 : Shape := ⟨3, ![1, 1, 512]⟩
abbrev S512x3072 : Shape := ⟨2, ![512, 3072]⟩
abbrev S512x1024 : Shape := ⟨2, ![512, 1024]⟩
abbrev S1x512 : Shape := ⟨2, ![1, 512]⟩
abbrev S512x128 : Shape := ⟨2, ![512, 128]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩

abbrev nBuf : Space → Nat
  | .hbm => 16
  | .vmem => 9
  | .smem => 0
  | _ => 0

abbrev bufTy : (tb : Table) → Fin (tcTables nBuf tb) → BufTy
  | .hbm, ⟨0, _⟩ => ⟨S8x1x512x1024, .f32⟩
  | .hbm, ⟨1, _⟩ => ⟨S8x1x1x512, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x512x1024, .f32⟩
  | .hbm, ⟨9, _⟩ => ⟨S1024x3072, .f32⟩
  | .hbm, ⟨10, _⟩ => ⟨S3072, .f32⟩
  | .hbm, ⟨11, _⟩ => ⟨S1024x3072, .bf16⟩
  | .hbm, ⟨12, _⟩ => ⟨S1x3072, .f32⟩
  | .hbm, ⟨13, _⟩ => ⟨S8x1x512, .f32⟩
  | .hbm, ⟨14, _⟩ => ⟨S8x512x1024, .f32⟩
  | .hbm, ⟨15, _⟩ => ⟨S8x1x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1x1x512, .f32⟩
  | .local _ .vmem, ⟨5, _⟩ => ⟨S1x1x512, .f32⟩
  | .local _ .vmem, ⟨6, _⟩ => ⟨S1x512x1024, .f32⟩
  | .local _ .vmem, ⟨7, _⟩ => ⟨S1x512x1024, .f32⟩
  | .local _ .vmem, ⟨8, _⟩ => ⟨S512x3072, .bf16⟩
  | _, _ => ⟨S8x1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32_13 : BitVec 32 := 0#32
  let c0_i32 : BitVec 32 := 0#32
  let c1_i32 : BitVec 32 := 1#32
  let arg7 : BitVec 32 := Scf.iv c0_i32 c1_i32 k0_t1
  let c1_i32_12 : BitVec 32 := 1#32
  let v17 : BitVec 32 := Scalar.muli arg7 c1_i32_12
  let v18 : BitVec 32 := Scalar.addi c0_i32_13 v17
  let c128_i32 : BitVec 32 := 128#32
  let v19 : BitVec 32 := Scalar.muli v18 c128_i32
  v19
def k0_mult2 (k0_t1 : Fin k0_t1_loop.trips) : BitVec 32 :=
  let c1024_i32 : BitVec 32 := 1024#32
  let c0_i32_13 : BitVec 32 := 0#32
  let c0_i32 : BitVec 32 := 0#32
  let c1_i32 : BitVec 32 := 1#32
  let arg7 : BitVec 32 := Scf.iv c0_i32 c1_i32 k0_t1
  let c1_i32_12 : BitVec 32 := 1#32
  let v17 : BitVec 32 := Scalar.muli arg7 c1_i32_12
  let v18 : BitVec 32 := Scalar.addi c0_i32_13 v17
  let c128_i32_14 : BitVec 32 := 128#32
  let v21 : BitVec 32 := Scalar.muli v18 c128_i32_14
  let v22 : BitVec 32 := Scalar.addi c1024_i32 v21
  v22
def k0_mult3 (k0_t1 : Fin k0_t1_loop.trips) : BitVec 32 :=
  let c2048_i32 : BitVec 32 := 2048#32
  let c0_i32_13 : BitVec 32 := 0#32
  let c0_i32 : BitVec 32 := 0#32
  let c1_i32 : BitVec 32 := 1#32
  let arg7 : BitVec 32 := Scf.iv c0_i32 c1_i32 k0_t1
  let c1_i32_12 : BitVec 32 := 1#32
  let v17 : BitVec 32 := Scalar.muli arg7 c1_i32_12
  let v18 : BitVec 32 := Scalar.addi c0_i32_13 v17
  let c128_i32_15 : BitVec 32 := 128#32
  let v24 : BitVec 32 := Scalar.muli v18 c128_i32_15
  let v25 : BitVec 32 := Scalar.addi c2048_i32 v24
  v25
def k0_off1 (k0_t1 : Fin k0_t1_loop.trips) : Fin 2 → Nat :=
  let c0_16 : Index := 0#32
  let c0_i32_13 : BitVec 32 := 0#32
  let c0_i32 : BitVec 32 := 0#32
  let c1_i32 : BitVec 32 := 1#32
  let arg7 : BitVec 32 := Scf.iv c0_i32 c1_i32 k0_t1
  let c1_i32_12 : BitVec 32 := 1#32
  let v17 : BitVec 32 := Scalar.muli arg7 c1_i32_12
  let v18 : BitVec 32 := Scalar.addi c0_i32_13 v17
  let c128_i32 : BitVec 32 := 128#32
  let v19 : BitVec 32 := Scalar.muli v18 c128_i32
  let v20 : BitVec 32 := v19
  let v27 : Index := Scalar.indexCast v20
  ![0, v27.toNat]
def k0_off2 (k0_t1 : Fin k0_t1_loop.trips) (c1024_i32 : BitVec 32) : Fin 2 → Nat :=
  let c0_17 : Index := 0#32
  let c0_i32_13 : BitVec 32 := 0#32
  let c0_i32 : BitVec 32 := 0#32
  let c1_i32 : BitVec 32 := 1#32
  let arg7 : BitVec 32 := Scf.iv c0_i32 c1_i32 k0_t1
  let c1_i32_12 : BitVec 32 := 1#32
  let v17 : BitVec 32 := Scalar.muli arg7 c1_i32_12
  let v18 : BitVec 32 := Scalar.addi c0_i32_13 v17
  let c128_i32_14 : BitVec 32 := 128#32
  let v21 : BitVec 32 := Scalar.muli v18 c128_i32_14
  let v22 : BitVec 32 := Scalar.addi c1024_i32 v21
  let v23 : BitVec 32 := v22
  let v29 : Index := Scalar.indexCast v23
  ![0, v29.toNat]
def k0_off3 (k0_t1 : Fin k0_t1_loop.trips) : Fin 3 → Nat :=
  let c0_31 : Index := 0#32
  let c0_32 : Index := 0#32
  let c0_i32_13 : BitVec 32 := 0#32
  let c0_i32 : BitVec 32 := 0#32
  let c1_i32 : BitVec 32 := 1#32
  let arg7 : BitVec 32 := Scf.iv c0_i32 c1_i32 k0_t1
  let c1_i32_12 : BitVec 32 := 1#32
  let v17 : BitVec 32 := Scalar.muli arg7 c1_i32_12
  let v18 : BitVec 32 := Scalar.addi c0_i32_13 v17
  let c128_i32 : BitVec 32 := 128#32
  let v19 : BitVec 32 := Scalar.muli v18 c128_i32
  let v20 : BitVec 32 := v19
  let v78 : Index := Scalar.indexCast v20
  ![0, 0, v78.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x1x512x1024_S8x512x1024 : S8x1x512x1024.ShapeCasts S8x512x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bitsLt_bf16_f32 : FTy.bits .bf16 < FTy.bits .f32
  shapeCasts_S3072_S1x3072 : S3072.ShapeCasts S1x3072
  shapeCasts_S8x1x1x512_S8x1x512 : S8x1x1x512.ShapeCasts S8x1x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  packedbf16_S512x3072_S512x3072_0_0 : (Rect.unit (s := S512x3072) ![0, 0] S512x3072.size inb_S512x3072_S512x3072_0_0).PackedRows (EltTy.packing .bf16)
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  h_S512x128 : 0 < S512x128.numel
  slices_S512x128_o0_0_S512x64 : S512x128.Slices ![0, 0] S512x64
  transposes_S512x64_p1_0_S64x512 : S512x64.Transposes [1, 0] S64x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  slices_S512x128_o0_64_S512x64 : S512x128.Slices ![0, 64] S512x64
  concatenates_S512x64_S512x64_S512x128_d1 : Shape.Concatenates [S512x64, S512x64] S512x128 1
  h_S1x512x128 : 0 < S1x512x128.numel
  shapeCasts_S1x512x128_S512x128 : S1x512x128.ShapeCasts S512x128
  shapeCasts_S512x128_S1x512x128 : S512x128.ShapeCasts S1x512x128
  shapeCasts_S8x512x1024_S8x1x512x1024 : S8x512x1024.ShapeCasts S8x1x512x1024
  dot_S512x1024_S1024x3072_S512x3072_1_0_0_1_n_n_wf : DotDims.WF S512x1024 S1024x3072 S512x3072 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  k0_t1_ok : k0_t1_loop.OK
  k0_mult1_dvd : ∀ k0_t1 : Fin k0_t1_loop.trips, 128 ∣ (k0_mult1 k0_t1).toNat
  k0_mult2_dvd : ∀ k0_t1 : Fin k0_t1_loop.trips, 128 ∣ (k0_mult2 k0_t1).toNat
  k0_mult3_dvd : ∀ k0_t1 : Fin k0_t1_loop.trips, 128 ∣ (k0_mult3 k0_t1).toNat
  k0_off1_inb : ∀ k0_t1 : Fin k0_t1_loop.trips, ∀ a, (k0_off1 k0_t1) a + S512x128.size a ≤ S512x3072.size a
  k0_off2_inb : ∀ k0_t1 : Fin k0_t1_loop.trips, ∀ (r : Fin 2), ∀ a, (k0_off2 k0_t1 (BitVec.ofNat 32 (1024 + 1024 * r.val))) a + S512x128.size a ≤ S512x3072.size a
  k0_off3_inb : ∀ k0_t1 : Fin k0_t1_loop.trips, ∀ a, (k0_off3 k0_t1) a + S1x512x128.size a ≤ S1x512x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x512x1024.size a
  hwx0_0 : ∀ i : grid0.Coords, EltTy.bits .f32 = 32 ∨ (Rect.block (s := S8x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S8x1x512.size a
  hwx0_3 : ∀ i : grid0.Coords, EltTy.bits .f32 = 32 ∨ (Rect.block (s := S8x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x512x1024.size a
  hwx0_4 : ∀ i : grid0.Coords, EltTy.bits .f32 = 32 ∨ (Rect.block (s := S8x512x1024) S1x512x1024.size (cc0_transform_4 i) (hinb0_4 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1x512x1024 : Shape := ⟨4, ![8, 1, 512, 1024]⟩
abbrev S8x1x1x512 : Shape := ⟨4, ![8, 1, 1, 512]⟩
abbrev S1024x1024 : Shape := ⟨2, ![1024, 1024]⟩
abbrev S1024 : Shape := ⟨1, ![1024]⟩
abbrev S8x512x1024 : Shape := ⟨3, ![8, 512, 1024]⟩
abbrev S1024x3072 : Shape := ⟨2, ![1024, 3072]⟩
abbrev S3072 : Shape := ⟨1, ![3072]⟩
abbrev S8x512x3072 : Shape := ⟨3, ![8, 512, 3072]⟩
abbrev S1x1x3072 : Shape := ⟨3, ![1, 1, 3072]⟩
abbrev S8x512x16x64 : Shape := ⟨4, ![8, 512, 16, 64]⟩
abbrev S8x16x512x64 : Shape := ⟨4, ![8, 16, 512, 64]⟩
abbrev S8x16x512x512 : Shape := ⟨4, ![8, 16, 512, 512]⟩
abbrev S_ : Shape := ⟨0, ![]⟩
abbrev S8x16x512 : Shape := ⟨3, ![8, 16, 512]⟩
abbrev S8x16x512x1 : Shape := ⟨4, ![8, 16, 512, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x1x512x1024, .f32⟩
  | .hbm, ⟨1, _⟩ => ⟨S8x1x1x512, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x512x1024, .f32⟩
  | .hbm, ⟨9, _⟩ => ⟨S1024x3072, .f32⟩
  | .hbm, ⟨10, _⟩ => ⟨S3072, .f32⟩
  | .hbm, ⟨11, _⟩ => ⟨S8x512x3072, .f32⟩
  | .hbm, ⟨12, _⟩ => ⟨S1x1x3072, .f32⟩
  | .hbm, ⟨13, _⟩ => ⟨S8x512x3072, .f32⟩
  | .hbm, ⟨14, _⟩ => ⟨S8x512x3072, .f32⟩
  | .hbm, ⟨15, _⟩ => ⟨S8x512x1024, .f32⟩
  | .hbm, ⟨16, _⟩ => ⟨S8x512x1024, .f32⟩
  | .hbm, ⟨17, _⟩ => ⟨S8x512x1024, .f32⟩
  | .hbm, ⟨18, _⟩ => ⟨S8x512x16x64, .f32⟩
  | .hbm, ⟨19, _⟩ => ⟨S8x16x512x64, .f32⟩
  | .hbm, ⟨20, _⟩ => ⟨S8x512x16x64, .f32⟩
  | .hbm, ⟨21, _⟩ => ⟨S8x16x512x64, .f32⟩
  | .hbm, ⟨22, _⟩ => ⟨S8x512x16x64, .f32⟩
  | .hbm, ⟨23, _⟩ => ⟨S8x16x512x64, .f32⟩
  | .hbm, ⟨24, _⟩ => ⟨S8x16x512x512, .f32⟩
  | .hbm, ⟨25, _⟩ => ⟨S_, .f32⟩
  | .hbm, ⟨26, _⟩ => ⟨S8x16x512x512, .f32⟩
  | .hbm, ⟨27, _⟩ => ⟨S8x16x512x512, .f32⟩
  | .hbm, ⟨28, _⟩ => ⟨S8x16x512x512, .f32⟩
  | .hbm, ⟨29, _⟩ => ⟨S8x16x512x512, .f32⟩
  | .hbm, ⟨30, _⟩ => ⟨S_, .f32⟩
  | .hbm, ⟨31, _⟩ => ⟨S8x16x512, .f32⟩
  | .hbm, ⟨32, _⟩ => ⟨S_, .f32⟩
  | .hbm, ⟨33, _⟩ => ⟨S8x16x512, .f32⟩
  | .hbm, ⟨34, _⟩ => ⟨S8x16x512, .f32⟩
  | .hbm, ⟨35, _⟩ => ⟨S8x16x512x1, .f32⟩
  | .hbm, ⟨36, _⟩ => ⟨S8x16x512x512, .f32⟩
  | .hbm, ⟨37, _⟩ => ⟨S8x16x512x512, .f32⟩
  | .hbm, ⟨38, _⟩ => ⟨S8x16x512x512, .f32⟩
  | .hbm, ⟨39, _⟩ => ⟨S_, .f32⟩
  | .hbm, ⟨40, _⟩ => ⟨S8x16x512, .f32⟩
  | .hbm, ⟨41, _⟩ => ⟨S8x16x512x1, .f32⟩
  | .hbm, ⟨42, _⟩ => ⟨S8x16x512x512, .f32⟩
  | .hbm, ⟨43, _⟩ => ⟨S8x16x512x512, .f32⟩
  | .hbm, ⟨44, _⟩ => ⟨S8x16x512x64, .f32⟩
  | .hbm, ⟨45, _⟩ => ⟨S8x512x16x64, .f32⟩
  | .hbm, ⟨46, _⟩ => ⟨S8x1x512x1024, .f32⟩
  | _, _ => ⟨S8x1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  shapeCasts_S8x1x512x1024_S8x512x1024 : S8x1x512x1024.ShapeCasts S8x512x1024
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x1x3072_2 : S3072.BroadcastsInDim S1x1x3072 (![2] : Fin 1 → Fin S1x1x3072.rank)
  bcast_S1x1x3072_S8x512x3072_0_1_2 : S1x1x3072.BroadcastsInDim S8x512x3072 (![0, 1, 2] : Fin 3 → Fin S8x512x3072.rank)
  slices_S8x512x3072_S8x512x1024_0_0_0 : S8x512x3072.Slices ![0, 0, 0] S8x512x1024
  slices_S8x512x3072_S8x512x1024_0_0_1024 : S8x512x3072.Slices ![0, 0, 1024] S8x512x1024
  slices_S8x512x3072_S8x512x1024_0_0_2048 : S8x512x3072.Slices ![0, 0, 2048] S8x512x1024
  shapeCasts_S8x512x1024_S8x512x16x64 : S8x512x1024.ShapeCasts S8x512x16x64
  transposes_S8x512x16x64_S8x16x512x64_0_2_1_3 : S8x512x16x64.Transposes [0, 2, 1, 3] S8x16x512x64
  bcast_S_S8x16x512x512 : S_.BroadcastsInDim S8x16x512x512 (![] : Fin 0 → Fin S8x16x512x512.rank)
  bcast_S8x1x1x512_S8x16x512x512_0_1_2_3 : S8x1x1x512.BroadcastsInDim S8x16x512x512 (![0, 1, 2, 3] : Fin 4 → Fin S8x16x512x512.rank)
  reducesTo_S8x16x512x512_S8x16x512_d3 : S8x16x512x512.ReducesTo [3] S8x16x512
  h_S_ : 0 < S_.numel
  bcast_S_S8x16x512 : S_.BroadcastsInDim S8x16x512 (![] : Fin 0 → Fin S8x16x512.rank)
  bcast_S8x16x512_S8x16x512x1_0_1_2 : S8x16x512.BroadcastsInDim S8x16x512x1 (![0, 1, 2] : Fin 3 → Fin S8x16x512x1.rank)
  bcast_S8x16x512x1_S8x16x512x512_0_1_2_3 : S8x16x512x1.BroadcastsInDim S8x16x512x512 (![0, 1, 2, 3] : Fin 4 → Fin S8x16x512x512.rank)
  transposes_S8x16x512x64_S8x512x16x64_0_2_1_3 : S8x16x512x64.Transposes [0, 2, 1, 3] S8x512x16x64
  shapeCasts_S8x512x16x64_S8x1x512x1024 : S8x512x16x64.ShapeCasts S8x1x512x1024
  dot_S8x512x1024_S1024x3072_S8x512x3072_2_0_01_1_n_n_wf : DotDims.WF S8x512x1024 S1024x3072 S8x512x3072 [2] [0] [0, 1] [1] [] []
  dot_S8x16x512x64_S8x16x512x64_S8x16x512x512_3_3_2_2_01_01_wf : DotDims.WF S8x16x512x64 S8x16x512x64 S8x16x512x512 [3] [3] [2] [2] [0, 1] [0, 1]
  dot_S8x16x512x512_S8x16x512x64_S8x16x512x64_3_2_2_3_01_01_wf : DotDims.WF S8x16x512x512 S8x16x512x64 S8x16x512x64 [3] [2] [2] [3] [0, 1] [0, 1]

variable [Facts₀]

def dot_S8x512x1024_S1024x3072_S8x512x3072_2_0_01_1_n_n : DotDims S8x512x1024 S1024x3072 S8x512x3072 where
  lhsContracting := [2]
  rhsContracting := [0]
  lhsNonContracting := [0, 1]
  rhsNonContracting := [1]
  lhsBatch := []
  rhsBatch := []
  wf := dot_S8x512x1024_S1024x3072_S8x512x3072_2_0_01_1_n_n_wf
def dot_S8x16x512x64_S8x16x512x64_S8x16x512x512_3_3_2_2_01_01 : DotDims S8x16x512x64 S8x16x512x64 S8x16x512x512 where
  lhsContracting := [3]
  rhsContracting := [3]
  lhsNonContracting := [2]
  rhsNonContracting := [2]
  lhsBatch := [0, 1]
  rhsBatch := [0, 1]
  wf := dot_S8x16x512x64_S8x16x512x64_S8x16x512x512_3_3_2_2_01_01_wf
def dot_S8x16x512x512_S8x16x512x64_S8x16x512x64_3_2_2_3_01_01 : DotDims S8x16x512x512 S8x16x512x64 S8x16x512x64 where
  lhsContracting := [3]
  rhsContracting := [2]
  lhsNonContracting := [2]
  rhsNonContracting := [3]
  lhsBatch := [0, 1]
  rhsBatch := [0, 1]
  wf := dot_S8x16x512x512_S8x16x512x64_S8x16x512x64_3_2_2_3_01_01_wf

class Facts : Prop extends Facts₀ where

variable [Facts]
-- ==== Proof.KKit.lean ====
/-
  The program around its one kernel launch: six host lines (a reshape of the activations, the three weight
  matrices laid side by side, the three biases end to end, the weights narrowed to bf16, the bias as a row, the
  mask reshaped), the launch over the 8 batch rows, and one host line reshaping the result.  This module states
  what the launch finds in each array, that no host line touches an argument, what block of each input array a
  grid point is handed, and how a run of the launch gives the frame property for the eight arguments.
-/
import proofs.«138020_j64158221467860_2_alg».proof.Proof.Gen.Kernel.Launch
import proofs.«138020_j64158221467860_2_alg».proof.Proof.Gen.Kernel.Skeleton
import proofs.«138020_j64158221467860_2_alg».proof.Proof.Gen.Kernel.Loops
import proofs.«138020_j64158221467860_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What each device buffer holds when the launch is reached: the six host lines applied to the starting memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the six lines, the launch, and the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the launch touches only arrays of the launch and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as the program was started with it. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as the program was started with it. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2: it ends as the program was started with it. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3: it ends as the program was started with it. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4: it ends as the program was started with it. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 5: it ends as the program was started with it. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 6: it ends as the program was started with it. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 7: it ends as the program was started with it. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The blocks a grid point is handed -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (a window whose block index does not move is fetched once and stays). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or not (a window whose block index does not move is fetched once and stays). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or not (a window whose block index does not move is fetched once and stays). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or not (a window whose block index does not move is fetched once and stays). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run of the launch -/

/-- A run whose end state has every buffer the launch does not stage as the last host line leaves it gives the frame
    property: each of the eight arguments is no array of the launch and no host line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c))⟩) h

/-! ## The staging buffers and the scratch as the body is called with them -/

/-- One staging buffer of the output window, through which its contents are stated. -/
abbrev VO0_4 : View sig .tc .vmem S1x512x1024 .f32 := (Memref.whole cc0_stg4_0 : Memref sig .tc .vmem S1x512x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .f32 := win0_4.stage (cfg0.slots t 4)
abbrev hs0_4 (t : Fin cfg0.N) : (ms0_4 t).IsWhole := hstage0_4 ((cfg0.slots t 4).cast nbuf0_4)
/-- The scratch holding the fused projection: a whole buffer of the kernel's own. -/
abbrev scM0_0 : Memref sig .tc .vmem S512x3072 .bf16 := Memref.whole cc0_scratch0

/-- What the launch lends the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRun.lean ====
/-
  One grid point of the kernel, run symbolically on whole staging buffers: the four input buffers at their
  contents, the output buffer and the scratch at anything.  The body loads the activations, weights, bias and
  mask, stores the fused projection into the scratch, and in eight trips reads three 128-column slabs of it and
  stores one 128-column slab of the output.  The run ends with the inputs as they were, the scratch holding the
  projection and the output buffer holding the eight slabs: the pieces are what the run itself finds.
-/
import proofs.«138020_j64158221467860_2_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the scratch (last first), with the proof that
    the body runs from the buffers described above to a state holding them. -/
noncomputable def kernelRun0 (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (x0 : Vec F S1x512x1024 .f32) (x1 : Vec F S1024x3072 .bf16) (x2 : Vec F S1x3072 .f32) (x3 : Vec F S1x1x512 .f32) :
    Σ' (L4 : List (View.Piece (Elt F) S1x512x1024 .f32)), { LS0 : List (View.Piece (Elt F) S512x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS0

end Cert.Kernel.Hand

end
-- ==== Proof.KFrame.lean ====
/-
  The launch as a whole.  After grid point t the four input staging buffers still hold their blocks and the output
  staging buffer holds the eight 128-column slabs the body stored, which tile its 512 × 1024 block; the scratch and
  the generator register pass through at some contents.  From this the pipeline's launch theorem gives a run of the
  whole program in which every argument array ends as it started.
-/
import proofs.«138020_j64158221467860_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight slabs the run stores into the output buffer tile its block, so every index is covered. -/
theorem cover0_4 (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (x0 : Vec F S1x512x1024 .f32) (x1 : Vec F S1024x3072 .bf16) (x2 : Vec F S1x3072 .f32) (x3 : Vec F S1x1x512 .f32) (y : S1x512x1024.Idx) :
    ∃ pc ∈ (kernelRun0 c i arg1 harg1 arg2 harg2 arg3 harg3 arg4 harg4 arg5 harg5 arg6 harg6 x0 x1 x2 x3).1, y ∈ pc.1.set :=
  View.cover_of_tiledL (kernelRun0 c i arg1 harg1 arg2 harg2 arg3 harg3 arg4 harg4 arg5 harg5 arg6 harg6 x0 x1 x2 x3).1 S1x512x128.size (by sl_kernel_rfl) y

/-- What the run leaves in the output staging buffer: its pieces read back. -/
def out0_4 (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (x0 : Vec F S1x512x1024 .f32) (x1 : Vec F S1024x3072 .bf16) (x2 : Vec F S1x3072 .f32) (x3 : Vec F S1x1x512 .f32) : Vec F S1x512x1024 .f32 :=
  VO0_4.read (Elt F) (VO0_4.writes (Elt F) VO0_4.junk (kernelRun0 c i arg1 harg1 arg2 harg2 arg3 harg3 arg4 harg4 arg5 harg5 arg6 harg6 x0 x1 x2 x3).1)

/-- What the output staging buffer holds after the body at point t. -/
def outsAt0 (c : Dev nD) (t : Fin cfg0.N) : Vec F S1x512x1024 .f32 :=
  out0_4 c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t)

/-- The proof data of the launch on core c: the arrays as the launch finds them; after the body at point t each
    input buffer at its block and the output buffer at the run's contents; the scratch and the generator register
    lent unchanged; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2000000 in
/-- The body at any point: the input buffers hold their blocks, so the run applies; the scratch is lent at some
    contents and given back at some contents; the output buffer ends at the run's pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_4
  iintro ⟨⟨HS0, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault; at the end every array of the launch is
    what the pipeline wrote back from the proof data, and every other buffer is as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame property: the program runs to the end, faults nowhere, and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.Kernel.Hand

end
-- ==== Proof.KIKit.lean ====
/-
  The program around its one kernel launch: six host lines (a reshape of the activations, the three weight
  matrices laid side by side, the three biases end to end, the weights narrowed to bf16, the bias as a row, the
  mask reshaped), the launch over the 8 batch rows, and one host line reshaping the result.  This module states
  what the launch finds in each array, that no host line touches an argument, what block of each input array a
  grid point is handed, and how a run of the launch gives the frame property for the eight arguments.
-/
import proofs.«138020_j64158221467860_2_alg».proof.Proof.Gen.KernelIdeal.Launch
import proofs.«138020_j64158221467860_2_alg».proof.Proof.Gen.KernelIdeal.Skeleton
import proofs.«138020_j64158221467860_2_alg».proof.Proof.Gen.KernelIdeal.Loops
import proofs.«138020_j64158221467860_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- What each device buffer holds when the launch is reached: the six host lines applied to the starting memory. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the six lines, the launch, and the last line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the launch touches only arrays of the launch and buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result only, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes argument 0: the region finds it as the program was started with it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 0: it ends as the program was started with it. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as the program was started with it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 1: it ends as the program was started with it. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as the program was started with it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 2: it ends as the program was started with it. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as the program was started with it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 3: it ends as the program was started with it. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as the program was started with it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 4: it ends as the program was started with it. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as the program was started with it. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 5: it ends as the program was started with it. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as the program was started with it. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 6: it ends as the program was started with it. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the region writes argument 7: the region finds it as the program was started with it. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host line after the region writes argument 7: it ends as the program was started with it. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The blocks a grid point is handed -/

/-- Window w's block at point t, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it there
    or not (a window whose block index does not move is fetched once and stays). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it there
    or not (a window whose block index does not move is fetched once and stays). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it there
    or not (a window whose block index does not move is fetched once and stays). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it there
    or not (a window whose block index does not move is fetched once and stays). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run of the launch -/

/-- A run whose end state has every buffer the launch does not stage as the last host line leaves it gives the frame
    property: each of the eight arguments is no array of the launch and no host line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c)),
    (((h c).2 main_arg3 (Pipeline.mem_restRefs_of main_arg3 (by decide) (by decide))).trans (W_main_arg3 m dats c)),
    (((h c).2 main_arg4 (Pipeline.mem_restRefs_of main_arg4 (by decide) (by decide))).trans (W_main_arg4 m dats c)),
    (((h c).2 main_arg5 (Pipeline.mem_restRefs_of main_arg5 (by decide) (by decide))).trans (W_main_arg5 m dats c)),
    (((h c).2 main_arg6 (Pipeline.mem_restRefs_of main_arg6 (by decide) (by decide))).trans (W_main_arg6 m dats c)),
    (((h c).2 main_arg7 (Pipeline.mem_restRefs_of main_arg7 (by decide) (by decide))).trans (W_main_arg7 m dats c))⟩) h

/-! ## The staging buffers and the scratch as the body is called with them -/

/-- One staging buffer of the output window, through which its contents are stated. -/
abbrev VO0_4 : View sig .tc .vmem S1x512x1024 .f32 := (Memref.whole cc0_stg4_0 : Memref sig .tc .vmem S1x512x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .f32 := win0_4.stage (cfg0.slots t 4)
abbrev hs0_4 (t : Fin cfg0.N) : (ms0_4 t).IsWhole := hstage0_4 ((cfg0.slots t 4).cast nbuf0_4)
/-- The scratch holding the fused projection: a whole buffer of the kernel's own. -/
abbrev scM0_0 : Memref sig .tc .vmem S512x3072 .bf16 := Memref.whole cc0_scratch0

/-- What the launch lends the body besides the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRun.lean ====
/-
  One grid point of the kernel, run symbolically on whole staging buffers: the four input buffers at their
  contents, the output buffer and the scratch at anything.  The body loads the activations, weights, bias and
  mask, stores the fused projection into the scratch, and in eight trips reads three 128-column slabs of it and
  stores one 128-column slab of the output.  The run ends with the inputs as they were, the scratch holding the
  projection and the output buffer holding the eight slabs: the pieces are what the run itself finds.
-/
import proofs.«138020_j64158221467860_2_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the scratch (last first), with the proof that
    the body runs from the buffers described above to a state holding them. -/
noncomputable def kernelRun0 (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (x0 : Vec F S1x512x1024 .f32) (x1 : Vec F S1024x3072 .bf16) (x2 : Vec F S1x3072 .f32) (x3 : Vec F S1x1x512 .f32) :
    Σ' (L4 : List (View.Piece (Elt F) S1x512x1024 .f32)), { LS0 : List (View.Piece (Elt F) S512x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS0

end Cert.KernelIdeal.Hand

end
-- ==== Proof.KIFrame.lean ====
/-
  The launch as a whole.  After grid point t the four input staging buffers still hold their blocks and the output
  staging buffer holds the eight 128-column slabs the body stored, which tile its 512 × 1024 block; the scratch and
  the generator register pass through at some contents.  From this the pipeline's launch theorem gives a run of the
  whole program in which every argument array ends as it started.
-/
import proofs.«138020_j64158221467860_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight slabs the run stores into the output buffer tile its block, so every index is covered. -/
theorem cover0_4 (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (x0 : Vec F S1x512x1024 .f32) (x1 : Vec F S1024x3072 .bf16) (x2 : Vec F S1x3072 .f32) (x3 : Vec F S1x1x512 .f32) (y : S1x512x1024.Idx) :
    ∃ pc ∈ (kernelRun0 c i arg1 harg1 arg2 harg2 arg3 harg3 arg4 harg4 arg5 harg5 arg6 harg6 x0 x1 x2 x3).1, y ∈ pc.1.set :=
  View.cover_of_tiledL (kernelRun0 c i arg1 harg1 arg2 harg2 arg3 harg3 arg4 harg4 arg5 harg5 arg6 harg6 x0 x1 x2 x3).1 S1x512x128.size (by sl_kernel_rfl) y

/-- What the run leaves in the output staging buffer: its pieces read back. -/
def out0_4 (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (x0 : Vec F S1x512x1024 .f32) (x1 : Vec F S1024x3072 .bf16) (x2 : Vec F S1x3072 .f32) (x3 : Vec F S1x1x512 .f32) : Vec F S1x512x1024 .f32 :=
  VO0_4.read (Elt F) (VO0_4.writes (Elt F) VO0_4.junk (kernelRun0 c i arg1 harg1 arg2 harg2 arg3 harg3 arg4 harg4 arg5 harg5 arg6 harg6 x0 x1 x2 x3).1)

/-- What the output staging buffer holds after the body at point t. -/
def outsAt0 (c : Dev nD) (t : Fin cfg0.N) : Vec F S1x512x1024 .f32 :=
  out0_4 c (grid0.coords t) (ms0_0 t) (hs0_0 t) (ms0_1 t) (hs0_1 t) (ms0_2 t) (hs0_2 t) (ms0_3 t) (hs0_3 t) (ms0_4 t) (hs0_4 t) scM0_0 (Memref.isWhole_whole _)
    (iblk m c 0 t) (iblk m c 1 t) (iblk m c 2 t) (iblk m c 3 t)

/-- The proof data of the launch on core c: the arrays as the launch finds them; after the body at point t each
    input buffer at its block and the output buffer at the run's contents; the scratch and the generator register
    lent unchanged; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2000000 in
/-- The body at any point: the input buffers hold their blocks, so the run applies; the scratch is lent at some
    contents and given back at some contents; the output buffer ends at the run's pieces, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  unfold outsAt0
  unfold out0_4
  iintro ⟨⟨HS0, Hg⟩, Ho, ⟨%d0, H0⟩, ⟨%d1, H1⟩, ⟨%d2, H2⟩, ⟨%d3, H3⟩, ⟨%d4, H4⟩⟩
  iapply ((kernelRun0 c (grid0.coords t) _ _ _ _ _ _ _ _ _ _ _ _ (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_4 c _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault; at the end every array of the launch is
    what the pipeline wrote back from the proof data, and every other buffer is as the last host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame property: the program runs to the end, faults nowhere, and leaves its eight arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (run_main m ρ)

end Cert.KernelIdeal.Hand

end
-- ==== Proof.LibLoadAt.lean ====
/-
  Two facts about loads through rectangles of unit strides, for any shapes and any family of element values.

  `ld_at`: a load through the rectangle with offsets `off` and sizes `[a, b]` of a rank-2 array, read at (s, l), is the
  array at (off 0 + s, off 1 + l).
  `readAt_whole`: a load through the whole-shape rectangle at zero offsets of a whole buffer holding `x` reads `x`.
-/
import Idealize.ShloMosaic.Lib.Pipeline.FrameBody
import Idealize.ShloMosaic.Lib.Pipeline.Value
import Idealize.ShloMosaic.Lib.ValueIdx

noncomputable section

namespace Cert.Lib

open Idealize.ShloMosaic Idealize.ShloMosaic.ValueIdx

/-- A load through a rectangle of unit strides, read at an index: the contents at the index shifted by the offsets. -/
theorem ld_at {Val : EltTy → Type} {A B a b : Nat} {e : EltTy} (X : (⟨2, ![A, B]⟩ : Shape).Idx → Val e) (off : Fin 2 → Nat)
    (inb : ∀ x, off x + (![a, b] : Fin 2 → Nat) x ≤ (⟨2, ![A, B]⟩ : Shape).size x) (s : Fin a) (l : Fin b)
    (R : Fin A) (Q : Fin B) (h0 : R.val = off 0 + s.val) (h1 : Q.val = off 1 + l.val) :
    View.ld X (Rect.unit (s := ⟨2, ![A, B]⟩) off ![a, b] inb) (ix2 s l) = X (ix2 R Q) := by
  show X ((Rect.unit (s := ⟨2, ![A, B]⟩) off ![a, b] inb).idx (ix2 s l)) = X (ix2 R Q)
  congr 1; funext d; apply Fin.ext
  match d with
  | ⟨0, _⟩ => show off 0 + 1 * s.val = R.val; omega
  | ⟨1, _⟩ => show off 1 + 1 * l.val = Q.val; omega

/-- The zero offsets of a rank-2 rectangle, as the constant function. -/
theorem zero2 : (![0, 0] : Fin 2 → Nat) = fun _ => 0 := funext fun a => by fin_cases a <;> rfl

/-- A load of a whole buffer through the whole-shape rectangle reads its contents. -/
theorem readAt_whole {Val : EltTy → Type} {sig : RefSig} {κ : Kind} {sp : Space} {S : Shape} {e : EltTy}
    (a : Memref sig κ sp S e) (ha : a.IsWhole) (x : S.Idx → Val e)
    {off : Fin S.rank → Nat} (hz : off = fun _ => 0) (inb : ∀ d, off d + S.size d ≤ S.size d) :
    View.readAt Val a.view (Rect.unit off S.size inb).toLoadRect (ha.unread x) = x := by
  rw [View.readAt_eq_ld, ha.read_unread, View.ld_unit_zero hz]

end Cert.Lib

end
-- ==== Proof.KIPieces.lean ====
/-
  What the run stored, piece by piece.  The output buffer receives one piece per trip of the loop: trip k stores,
  through the 128-column rectangle at column 128 k, the two heads 2 k and 2 k + 1 computed from three 128-column
  slabs of the scratch (queries at column 128 k, keys at 1024 + 128 k, values at 2048 + 128 k).  The scratch itself
  received one piece: the fused projection of the point's activations, through its whole rectangle.
-/
import proofs.«138020_j64158221467860_2_alg».proof.Proof.KIFrame
import proofs.«138020_j64158221467860_2_alg».proof.Proof.LibLoadAt

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three slabs trip k loads from the scratch holding X. -/
abbrev slabQ (arg6 : Memref sig .tc .vmem S512x3072 .bf16) (X : BufTy.Contents (Elt F) arg6.view.ty) (k : Fin k0_t1_loop.trips) : Vec F S512x128 .bf16 :=
  View.readAt (Elt F) arg6.view (Rect.unit (s := S512x3072) (k0_off1 k) S512x128.size (k0_off1_inb k)).toLoadRect X
abbrev slabK (arg6 : Memref sig .tc .vmem S512x3072 .bf16) (X : BufTy.Contents (Elt F) arg6.view.ty) (k : Fin k0_t1_loop.trips) : Vec F S512x128 .bf16 :=
  View.readAt (Elt F) arg6.view (Rect.unit (s := S512x3072) (k0_off2 k 1024#32) S512x128.size (k0_off2_inb k 0)).toLoadRect X
abbrev slabV (arg6 : Memref sig .tc .vmem S512x3072 .bf16) (X : BufTy.Contents (Elt F) arg6.view.ty) (k : Fin k0_t1_loop.trips) : Vec F S512x128 .bf16 :=
  View.readAt (Elt F) arg6.view (Rect.unit (s := S512x3072) (k0_off2 k 2048#32) S512x128.size (k0_off2_inb k 1)).toLoadRect X

/-- What trip k stores: the pair of heads as one 1 × 512 × 128 value. -/
abbrev tripPay (arg6 : Memref sig .tc .vmem S512x3072 .bf16) (v14 : Vec F S1x1x512 .f32) (X : BufTy.Contents (Elt F) arg6.view.ty) (k : Fin k0_t1_loop.trips) : FVec F S1x512x128 .f32 :=
  k0_pay3 v14 (k0_pay4 (k0_pay2 v14) (slabQ arg6 X k) (slabK arg6 X k) (slabV arg6 X k)) (k0_pay5 (slabQ arg6 X k)) (k0_pay6 (slabV arg6 X k)) (k0_pay7 (slabK arg6 X k))
    (constant S512x512 .f32 0x00000000#32)

/-- Trip k's one piece. -/
theorem tripL_eq (𝒱 : Variants) (c : Dev nD) (bd : Option 𝒱.V) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (v14 : Vec F S1x1x512 .f32) (X : BufTy.Contents (Elt F) arg6.view.ty) (k : Fin k0_t1_loop.trips) :
    tripL_k0_t1 (F := F) 𝒱 c bd i arg1 harg1 arg2 harg2 arg3 harg3 arg4 harg4 arg5 harg5 arg6 harg6 v14 X k
      = [⟨Rect.unit (s := S1x512x1024) (k0_off3 k) S1x512x128.size (k0_off3_inb k), tripPay arg6 v14 X k⟩] := by
  unfold tripL_k0_t1 trip_k0_t1; rfl

/-- Every piece the trips before n stored is some trip's piece. -/
theorem mem_pb (𝒱 : Variants) (c : Dev nD) (bd : Option 𝒱.V) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole)
    (v14 : Vec F S1x1x512 .f32) (X : BufTy.Contents (Elt F) arg6.view.ty) :
    ∀ (n : ℕ) (p : View.Piece (Elt F) S1x512x1024 .f32), p ∈ pb_k0_t1 (F := F) 𝒱 c bd i arg1 harg1 arg2 harg2 arg3 harg3 arg4 harg4 arg5 harg5 arg6 harg6 v14 X n →
      ∃ k : Fin k0_t1_loop.trips, p ∈ tripL_k0_t1 (F := F) 𝒱 c bd i arg1 harg1 arg2 harg2 arg3 harg3 arg4 harg4 arg5 harg5 arg6 harg6 v14 X k
  | 0, p, h => by rw [pb_k0_t1.eq_1] at h; exact absurd h List.not_mem_nil
  | n + 1, p, h => by
    rw [pb_k0_t1.eq_2] at h; unfold pb_k0_t1Step at h
    split_ifs at h with hn
    · rcases List.mem_append.mp h with h | h
      · exact ⟨⟨n, hn⟩, h⟩
      · exact mem_pb 𝒱 c bd i arg1 harg1 arg2 harg2 arg3 harg3 arg4 harg4 arg5 harg5 arg6 harg6 v14 X n p h
    · exact mem_pb 𝒱 c bd i arg1 harg1 arg2 harg2 arg3 harg3 arg4 harg4 arg5 harg5 arg6 harg6 v14 X n p h

theorem zero3 : (![0, 0, 0] : Fin 3 → Nat) = fun _ => 0 := funext fun a => by fin_cases a <;> rfl

/-- The scratch after the body's one store into it: the fused projection through the whole rectangle. -/
abbrev scratchAfter (arg6 : Memref sig .tc .vmem S512x3072 .bf16) (x0 : Vec F S1x512x1024 .f32) (x1 : Vec F S1024x3072 .bf16) (x2 : Vec F S1x3072 .f32) :
    BufTy.Contents (Elt F) arg6.view.ty :=
  arg6.view.writes (Elt F) arg6.view.junk [⟨Rect.unit (s := S512x3072) ![0, 0] S512x3072.size inb_S512x3072_S512x3072_0_0, k0_pay1 x0 x1 x2⟩]

/-- The pieces the run leaves in the output buffer are the trips' pieces over that scratch. -/
theorem run_pieces (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole) (x0 : Vec F S1x512x1024 .f32) (x1 : Vec F S1024x3072 .bf16) (x2 : Vec F S1x3072 .f32) (x3 : Vec F S1x1x512 .f32) :
    (kernelRun0 (F := F) c i arg1 harg1 arg2 harg2 arg3 harg3 arg4 harg4 arg5 harg5 arg6 harg6 x0 x1 x2 x3).1
      = pb_k0_t1 (F := F) Variants.none c none i arg1 harg1 arg2 harg2 arg3 harg3 arg4 harg4 arg5 harg5 arg6 harg6 x3 (scratchAfter arg6 x0 x1 x2) k0_t1_loop.trips := by
  have e0 := Cert.Lib.readAt_whole (Val := Elt F) arg1 harg1 x0 zero3 inb_S1x512x1024_S1x512x1024_0_0_0
  have e1 := Cert.Lib.readAt_whole (Val := Elt F) arg2 harg2 x1 Cert.Lib.zero2 inb_S1024x3072_S1024x3072_0_0
  have e2 := Cert.Lib.readAt_whole (Val := Elt F) arg3 harg3 x2 Cert.Lib.zero2 inb_S1x3072_S1x3072_0_0
  have e3 := Cert.Lib.readAt_whole (Val := Elt F) arg4 harg4 x3 zero3 inb_S1x1x512_S1x1x512_0_0_0
  unfold kernelRun0
  dsimp only
  unfold kernelRun0.sl.HS0_1
  rw [e0, e1, e2, e3]

/-- So every piece of the run is some trip's piece. -/
theorem run_piece_is_trip (c : Dev nD) (i : grid0.Coords) (arg1 : Memref sig .tc .vmem S1x512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S1x1x512 .f32) (harg4 : arg4.IsWhole) (arg5 : Memref sig .tc .vmem S1x512x1024 .f32) (harg5 : arg5.IsWhole) (arg6 : Memref sig .tc .vmem S512x3072 .bf16) (harg6 : arg6.IsWhole) (x0 : Vec F S1x512x1024 .f32) (x1 : Vec F S1024x3072 .bf16) (x2 : Vec F S1x3072 .f32) (x3 : Vec F S1x1x512 .f32)
    (p : View.Piece (Elt F) S1x512x1024 .f32) (hp : p ∈ (kernelRun0 (F := F) c i arg1 harg1 arg2 harg2 arg3 harg3 arg4 harg4 arg5 harg5 arg6 harg6 x0 x1 x2 x3).1) :
    ∃ k : Fin k0_t1_loop.trips, p = ⟨Rect.unit (s := S1x512x1024) (k0_off3 k) S1x512x128.size (k0_off3_inb k), tripPay arg6 x3 (scratchAfter arg6 x0 x1 x2) k⟩ := by
  rw [run_pieces] at hp
  obtain ⟨k, hk⟩ := mem_pb _ _ _ _ arg1 harg1 arg2 harg2 arg3 harg3 arg4 harg4 arg5 harg5 arg6 harg6 _ _ _ p hp
  rw [tripL_eq] at hk
  exact ⟨k, List.mem_singleton.mp hk⟩

end Cert.KernelIdeal.Hand

end
-- ==== Proof.KIArrays.lean ====
/-
  What the launch finds in the four input arrays, as terms of the program's arguments: the activations reshaped to
  8 × 512 × 1024, the three weight matrices side by side narrowed to bf16, the three biases end to end as one row,
  the mask reshaped to 8 × 1 × 512; and what the last host line makes of the launch's result.
-/
import proofs.«138020_j64158221467860_2_alg».proof.Proof.KIPieces
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights side by side and the biases end to end, as the host lines build them from the arguments. -/
abbrev wcat (c : Dev nD) : FVec F S1024x3072 .f32 :=
  concatenate S1024x3072 1 [⟨S1024x1024, m ((c : Thread nD τ).loc main_arg2)⟩, ⟨S1024x1024, m ((c : Thread nD τ).loc main_arg4)⟩, ⟨S1024x1024, m ((c : Thread nD τ).loc main_arg6)⟩] concatenates_S1024x1024_S1024x1024_S1024x1024_S1024x3072_d1
abbrev bcat (c : Dev nD) : FVec F S3072 .f32 :=
  concatenate S3072 0 [⟨S1024, m ((c : Thread nD τ).loc main_arg3)⟩, ⟨S1024, m ((c : Thread nD τ).loc main_arg5)⟩, ⟨S1024, m ((c : Thread nD τ).loc main_arg7)⟩] concatenates_S1024_S1024_S1024_S3072_d0

theorem V_v0 (c : Dev nD) : (V m c main_v0 : S8x512x1024.Idx → Elt F .f32)
    = shapeCast S8x512x1024 (m ((c : Thread nD τ).loc main_arg0)) shapeCasts_S8x1x512x1024_S8x512x1024 := by
  show StableHlo.after hostOps0 (fun b => m (c, b)) (Proc.devRef .tc main_v0) = _
  after_results; rfl

theorem V_v3 (c : Dev nD) : (V m c main_v3 : S1024x3072.Idx → Elt F .bf16)
    = truncf .bf16 (wcat m c) bitsLt_bf16_f32 := by
  show StableHlo.after hostOps0 (fun b => m (c, b)) (Proc.devRef .tc main_v3) = _
  after_results; rfl

theorem V_v4 (c : Dev nD) : (V m c main_v4 : S1x3072.Idx → Elt F .f32)
    = shapeCast S1x3072 (bcat m c) shapeCasts_S3072_S1x3072 := by
  show StableHlo.after hostOps0 (fun b => m (c, b)) (Proc.devRef .tc main_v4) = _
  after_results; rfl

theorem V_v5 (c : Dev nD) : (V m c main_v5 : S8x1x512.Idx → Elt F .f32)
    = shapeCast S8x1x512 (m ((c : Thread nD τ).loc main_arg1)) shapeCasts_S8x1x1x512_S8x1x512 := by
  show StableHlo.after hostOps0 (fun b => m (c, b)) (Proc.devRef .tc main_v5) = _
  after_results; rfl

end Cert.KernelIdeal.Hand

end
-- ==== Proof.KIBlocks.lean ====
/-
  Which entries of its array each window's block holds at grid point t: the activations' and the mask's blocks are
  batch row t, the weights and the bias row are whole at every point.
-/
import proofs.«138020_j64158221467860_2_alg».proof.Proof.KIArrays
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The block index of each window at grid point t. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- Grid point t as a batch row. -/
abbrev rowOf (t : Fin cfg0.N) : Fin 8 := ⟨t.val, lt_of_lt_of_eq t.isLt (show cfg0.N = 8 from N_0)⟩

theorem iblk0_apply (c : Dev nD) (t : Fin cfg0.N) (s : Fin 512) (h : Fin 1024) :
    (iblk m c 0 t : S1x512x1024.Idx → Elt F .f32) (ix3 0 s h) = (V m c main_v0 : S8x512x1024.Idx → Elt F .f32) (ix3 (rowOf t) s h) := by
  obtain ⟨e0, e1, e2, -⟩ := idx_facts t
  show V m c main_v0 (((cfg0.win 0).blk t).view.emb (ix3 0 s h)) = _
  congr 1; funext a; apply Fin.ext
  match a with
  | ⟨0, _⟩ => show win0_0.index t (0 : Fin 3) * 1 + 1 * 0 = t.val; omega
  | ⟨1, _⟩ => show win0_0.index t (1 : Fin 3) * 512 + 1 * s.val = s.val; omega
  | ⟨2, _⟩ => show win0_0.index t (2 : Fin 3) * 1024 + 1 * h.val = h.val; omega

theorem iblk1_apply (c : Dev nD) (t : Fin cfg0.N) (h : Fin 1024) (f : Fin 3072) :
    (iblk m c 1 t : S1024x3072.Idx → Elt F .bf16) (ix2 h f) = (V m c main_v3 : S1024x3072.Idx → Elt F .bf16) (ix2 h f) := by
  obtain ⟨-, -, -, e0, e1, -⟩ := idx_facts t
  show V m c main_v3 (((cfg0.win 1).blk t).view.emb (ix2 h f)) = _
  congr 1; funext a; apply Fin.ext
  match a with
  | ⟨0, _⟩ => show win0_1.index t (0 : Fin 2) * 1024 + 1 * h.val = h.val; omega
  | ⟨1, _⟩ => show win0_1.index t (1 : Fin 2) * 3072 + 1 * f.val = f.val; omega

theorem iblk2_apply (c : Dev nD) (t : Fin cfg0.N) (f : Fin 3072) :
    (iblk m c 2 t : S1x3072.Idx → Elt F .f32) (ix2 0 f) = (V m c main_v4 : S1x3072.Idx → Elt F .f32) (ix2 0 f) := by
  obtain ⟨-, -, -, -, -, e0, e1, -⟩ := idx_facts t
  show V m c main_v4 (((cfg0.win 2).blk t).view.emb (ix2 0 f)) = _
  congr 1; funext a; apply Fin.ext
  match a with
  | ⟨0, _⟩ => show win0_2.index t (0 : Fin 2) * 1 + 1 * 0 = 0; omega
  | ⟨1, _⟩ => show win0_2.index t (1 : Fin 2) * 3072 + 1 * f.val = f.val; omega

theorem iblk3_apply (c : Dev nD) (t : Fin cfg0.N) (k : Fin 512) :
    (iblk m c 3 t : S1x1x512.Idx → Elt F .f32) (ix3 0 0 k) = (V m c main_v5 : S8x1x512.Idx → Elt F .f32) (ix3 (rowOf t) 0 k) := by
  obtain ⟨-, -, -, -, -, -, -, e0, e1, e2, -⟩ := idx_facts t
  show V m c main_v5 (((cfg0.win 3).blk t).view.emb (ix3 0 0 k)) = _
  congr 1; funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * k.val = k.val; omega

/-- Where the output window's block at point t sits in the result array: batch row t. -/
theorem oblk_emb (t : Fin cfg0.N) (y : S1x512x1024.Idx) :
    ((cfg0.win 4).blk t).view.emb y = (ix3 (rowOf t) (y 1) (y 2) : S8x512x1024.Idx) := by
  obtain ⟨-, -, -, -, -, -, -, -, -, -, e0, e1, e2⟩ := idx_facts t
  funext a; apply Fin.ext
  have h0 : (y 0).val < 1 := (y 0).isLt
  match a with
  | ⟨0, _⟩ => show win0_4.index t (0 : Fin 3) * 1 + 1 * (y 0).val = t.val; omega
  | ⟨1, _⟩ => show win0_4.index t (1 : Fin 3) * 512 + 1 * (y 1).val = (y 1).val; omega
  | ⟨2, _⟩ => show win0_4.index t (2 : Fin 3) * 1024 + 1 * (y 2).val = (y 2).val; omega

end Cert.KernelIdeal.Hand

end
-- ==== Proof.KIInputs.lean ====
/-
  The four input blocks of grid point t, entry by entry, in terms of the program's arguments (at the exact
  reading, where narrowing to bf16 changes nothing), and a slab of the scratch read at an entry.
-/
import proofs.«138020_j64158221467860_2_alg».proof.Proof.KIBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

open Idealize.ShloMosaic.ValueIdx

/-- The activations' block: batch row t. -/
theorem inX (c : Dev nD) (t : Fin cfg0.N) (s : Fin 512) (h : Fin 1024) :
    (iblk m c 0 t : S1x512x1024.Idx → EReal) (ix3 0 s h) = m ((c : Thread nD τ).loc main_arg0) (ix4 (rowOf t) 0 s h) := by
  rw [iblk0_apply, V_v0]
  exact shapeCast_apply _ shapeCasts_S8x1x512x1024_S8x512x1024 (ix3 (rowOf t) s h) (ix4 (rowOf t) 0 s h)
    (by rewrite [Shape.rowMajor_val_four, Shape.rowMajor_val_three]
        show (((rowOf t).val * 1 + 0) * 512 + s.val) * 1024 + h.val = ((rowOf t).val * 512 + s.val) * 1024 + h.val
        omega)

/-- The weights' block: the three matrices side by side, whole. -/
theorem inW (c : Dev nD) (t : Fin cfg0.N) (h : Fin 1024) (f : Fin 3072) :
    (iblk m c 1 t : S1024x3072.Idx → EReal) (ix2 h f) = wcat (F := Ideal) m c (ix2 h f) := by
  rw [iblk1_apply, V_v3]; rfl

/-- The bias row: the three biases end to end. -/
theorem inB (c : Dev nD) (t : Fin cfg0.N) (f : Fin 3072) :
    (iblk m c 2 t : S1x3072.Idx → EReal) (ix2 0 f) = bcat (F := Ideal) m c (ix1 f) := by
  rw [iblk2_apply, V_v4]
  exact shapeCast_apply _ shapeCasts_S3072_S1x3072 (ix2 0 f) (ix1 f)
    (by rewrite [Shape.rowMajor_val_one, Shape.rowMajor_val_two]
        show f.val = 0 * 3072 + f.val
        omega)

/-- The mask's block: batch row t. -/
theorem inM (c : Dev nD) (t : Fin cfg0.N) (k : Fin 512) :
    (iblk m c 3 t : S1x1x512.Idx → EReal) (ix3 0 0 k) = m ((c : Thread nD τ).loc main_arg1) (ix4 (rowOf t) 0 0 k) := by
  rw [iblk3_apply, V_v5]
  exact shapeCast_apply _ shapeCasts_S8x1x1x512_S8x1x512 (ix3 (rowOf t) 0 k) (ix4 (rowOf t) 0 0 k)
    (by rewrite [Shape.rowMajor_val_four, Shape.rowMajor_val_three]
        show (((rowOf t).val * 1 + 0) * 1 + 0) * 512 + k.val = ((rowOf t).val * 1 + 0) * 512 + k.val
        omega)

/-- A 512 × 128 slab of the scratch at column offset off 1, after the scratch was filled whole with w: entry (s, l)
    is w at (s, off 1 + l). -/
theorem slab_apply (arg6 : Memref sig .tc .vmem S512x3072 .bf16) (w : S512x3072.Idx → Elt Ideal .bf16) (off : Fin 2 → Nat)
    (inb : ∀ a, off a + S512x128.size a ≤ S512x3072.size a) (s : Fin 512) (l : Fin 128) (Q : Fin 3072)
    (h0 : off 0 = 0) (hQ : Q.val = off 1 + l.val) :
    View.readAt (Elt Ideal) arg6.view (Rect.unit (s := S512x3072) off S512x128.size inb).toLoadRect
      (arg6.view.writes (Elt Ideal) arg6.view.junk [⟨Rect.unit (s := S512x3072) ![0, 0] S512x3072.size inb_S512x3072_S512x3072_0_0, w⟩]) (ix2 s l)
      = w (ix2 s Q) := by
  rw [View.readAt_writes_junk_eq_canon]
  show View.canon _ ((Rect.unit (s := S512x3072) off S512x128.size inb).toLoadRect.idx (ix2 s l)) = _
  rw [View.canon_unit_zero Cert.Lib.zero2]
  congr 1; funext d; apply Fin.ext
  match d with
  | ⟨0, _⟩ => show off 0 + 1 * s.val = s.val; omega
  | ⟨1, _⟩ => show off 1 + 1 * l.val = Q.val; omega

end Cert.KernelIdeal.Hand

end
-- ==== Proof.Spec.lean ====
/-
  The specification both programs are read against: multi-head attention over one batch row,
  stated over plain finite indices and the extended reals.

  For a batch row b the fused projection is  P s f = (∑ h, X b s h * W h f) + bias f  over the 3072
  columns f, of which columns 0..1023 are the queries, 1024..2047 the keys and 2048..3071 the values,
  each split into 16 heads of 64 columns.  For head n the score of query row i against key row j is
  (∑ d, Q i d * K j d) * (1/8) + mask j, the row is normalised by the soft maximum
  exp (s - m) / ∑ exp (s - m)  with m the row maximum (taken from -∞ upward), and the head's context
  row is the weighted sum of the value rows.  Column 64 n + d of the result holds head n at d.
-/
import Idealize.ShloMosaic.PureOps.Ideal
import Idealize.ShloMosaic.Lib.ValueIdx

noncomputable section

namespace Cert.Attn

open Idealize.ShloMosaic Idealize.ShloMosaic.ValueIdx

/-- The f32 words of 1/8 and of -∞ as the programs spell them, read as extended reals. -/
abbrev eighth : EReal := Ideal.ofBits .f32 0x3E000000#32
abbrev negInf : EReal := Ideal.ofBits .f32 0xFF800000#32

/-- One row of the fused projection: the dot product of a row of X with a column of W, plus the bias. -/
def proj (x : Fin 512 → Fin 1024 → EReal) (w : Fin 1024 → Fin 3072 → EReal) (bias : Fin 3072 → EReal)
    (s : Fin 512) (f : Fin 3072) : EReal :=
  (∑ h : Fin 1024, x s h * w h f) + bias f

/-- The scaled, masked score of query row i against key row j. -/
def score (q k : Fin 512 → Fin 64 → EReal) (mask : Fin 512 → EReal) (i j : Fin 512) : EReal :=
  (∑ d : Fin 64, q i d * k j d) * eighth + mask j

/-- The maximum of row i of a 512 × 512 table, taken from -∞ upward. -/
def rowMax (s : Fin 512 → Fin 512 → EReal) (i : Fin 512) : EReal :=
  max negInf ((Finset.univ : Finset (Fin 512)).fold max negInf (s i))

/-- exp of the score less its row's maximum. -/
def expo (s : Fin 512 → Fin 512 → EReal) (i j : Fin 512) : EReal :=
  Ideal.exp (s i j - rowMax s i)

/-- The soft maximum of row i at j. -/
def prob (s : Fin 512 → Fin 512 → EReal) (i j : Fin 512) : EReal :=
  Ideal.div (expo s i j) (∑ j' : Fin 512, expo s i j')

/-- One head's context: row i, column d. -/
def head (q k v : Fin 512 → Fin 64 → EReal) (mask : Fin 512 → EReal) (i : Fin 512) (d : Fin 64) : EReal :=
  ∑ j : Fin 512, prob (score q k mask) i j * v j d

/-- Column o + 64 n + d of the fused projection (o = 0, 1024, 2048 for queries, keys, values). -/
def col (o : ℕ) (ho : o + 1024 ≤ 3072) (n : Fin 16) (d : Fin 64) : Fin 3072 :=
  ⟨o + 64 * n.val + d.val, by have := n.isLt; have := d.isLt; omega⟩

/-- The whole computation at batch row b, query row i, head n, column d of the head. -/
def attn (X : Fin 8 → Fin 512 → Fin 1024 → EReal) (W : Fin 1024 → Fin 3072 → EReal) (bias : Fin 3072 → EReal)
    (M : Fin 8 → Fin 512 → EReal) (b : Fin 8) (i : Fin 512) (n : Fin 16) (d : Fin 64) : EReal :=
  head (fun s e => proj (X b) W bias s (col 0 (by omega) n e))
       (fun s e => proj (X b) W bias s (col 1024 (by omega) n e))
       (fun s e => proj (X b) W bias s (col 2048 (by omega) n e))
       (M b) i d

/-- The result array as ONE function of the argument arrays: the activations a0 [8,1,512,1024], the mask a1
    [8,1,1,512], the three weight matrices side by side as w [1024,3072] and the three biases end to end as
    bias [3072].  Entry (b, 0, i, c) is head c / 64 at column c % 64. -/
def G (a0 : (⟨4, ![8, 1, 512, 1024]⟩ : Shape).Idx → EReal) (a1 : (⟨4, ![8, 1, 1, 512]⟩ : Shape).Idx → EReal)
    (w : (⟨2, ![1024, 3072]⟩ : Shape).Idx → EReal) (bias : (⟨1, ![3072]⟩ : Shape).Idx → EReal) :
    (⟨4, ![8, 1, 512, 1024]⟩ : Shape).Idx → EReal :=
  fun i => attn (fun b s h => a0 (ix4 b 0 s h)) (fun h f => w (ix2 h f)) (fun f => bias (ix1 f))
    (fun b k => a1 (ix4 b 0 0 k)) (i 0) (i 2)
    ⟨(i 3).val / 64, by have : (i 3).val < 1024 := (i 3).isLt; omega⟩
    ⟨(i 3).val % 64, Nat.mod_lt _ (by decide)⟩

end Cert.Attn

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.MatmulForms.lean ====
/-
  The three matrix products of the kernel body, each into the zero accumulator, read at an entry as the plain
  finite sum over the contracted coordinate: rows of the left operand against columns of the right one.
-/
import proofs.«138020_j64158221467860_2_alg».proof.Proof.Gen.KernelIdeal.Skeleton
import proofs.«138020_j64158221467860_2_alg».proof.Proof.LibRowMatmul

namespace Cert.KernelIdeal.KValue

open Idealize.ShloMosaic Idealize.ShloMosaic.ValueIdx Cert.KernelIdeal Cert.KernelIdeal.Gen

/-- The projection product: a 512 × 1024 array against a 1024 × 3072 one. -/
theorem mm_proj_apply (A : FVec Ideal S512x1024 .bf16) (B : FVec Ideal S1024x3072 .bf16) (a : Fin 512) (b : Fin 3072) :
    matmul dot_S512x1024_S1024x3072_S512x3072_1_0_0_1_n_n none A B (constant (F := Ideal) S512x3072 .f32 0x00000000#32) (ix2 a b)
      = ∑ c : Fin 1024, A (ix2 a c) * B (ix2 c b) :=
  Cert.Lib.RowMatmul.matmul_cols_apply dot_S512x1024_S1024x3072_S512x3072_1_0_0_1_n_n rfl rfl rfl rfl
    (fun j q => by
      unfold DotDims.lhsIdx
      rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
      rfl)
    (fun j q => by
      unfold DotDims.rhsIdx
      rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
      rfl)
    none A B a b

/-- The score product: a 512 × 64 array against a 64 × 512 one. -/
theorem mm_score_apply (A : FVec Ideal S512x64 .bf16) (B : FVec Ideal S64x512 .bf16) (a : Fin 512) (b : Fin 512) :
    matmul dot_S512x64_S64x512_S512x512_1_0_0_1_n_n none A B (constant (F := Ideal) S512x512 .f32 0x00000000#32) (ix2 a b)
      = ∑ c : Fin 64, A (ix2 a c) * B (ix2 c b) :=
  Cert.Lib.RowMatmul.matmul_cols_apply dot_S512x64_S64x512_S512x512_1_0_0_1_n_n rfl rfl rfl rfl
    (fun j q => by
      unfold DotDims.lhsIdx
      rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
      rfl)
    (fun j q => by
      unfold DotDims.rhsIdx
      rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
      rfl)
    none A B a b

/-- The context product: a 512 × 512 array against a 512 × 64 one. -/
theorem mm_ctx_apply (A : FVec Ideal S512x512 .bf16) (B : FVec Ideal S512x64 .bf16) (a : Fin 512) (b : Fin 64) :
    matmul dot_S512x512_S512x64_S512x64_1_0_0_1_n_n none A B (constant (F := Ideal) S512x64 .f32 0x00000000#32) (ix2 a b)
      = ∑ c : Fin 512, A (ix2 a c) * B (ix2 c b) :=
  Cert.Lib.RowMatmul.matmul_cols_apply dot_S512x512_S512x64_S512x64_1_0_0_1_n_n rfl rfl rfl rfl
    (fun j q => by
      unfold DotDims.lhsIdx
      rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
      rfl)
    (fun j q => by
      unfold DotDims.rhsIdx
      rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
      rfl)
    none A B a b

end Cert.KernelIdeal.KValue
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.HeadValue.lean ====
/-
  One attention head as the kernel body computes it, over variables: the scaled and masked scores, the row maximum
  taken from -∞ upward, the exponentials of the scores less their row's maximum, the division by the row sum, and the
  product with the value rows.  Each stage is read at an entry and identified with the specification's function.
-/
import proofs.«138020_j64158221467860_2_alg».proof.Proof.Gen.KernelIdeal.Skeleton
import proofs.«138020_j64158221467860_2_alg».proof.Proof.Spec
import proofs.«138020_j64158221467860_2_alg».proof.Proof.MatmulForms
import proofs.«138020_j64158221467860_2_alg».proof.Proof.LibColumnForms

noncomputable section

namespace Cert.KernelIdeal.KValue

open Idealize.ShloMosaic Idealize.ShloMosaic.ValueIdx Cert.KernelIdeal Cert.KernelIdeal.Gen
open Cert.Lib.ColumnForms Cert.Lib.RowMatmul

/-- The scaled, masked scores: the query rows against the (already transposed) key rows, times 1/8, plus the mask row. -/
def scoreV (q : FVec Ideal S512x64 .bf16) (kT : FVec Ideal S64x512 .bf16) (m15 : FVec Ideal S1x512 .f32) :
    FVec Ideal S512x512 .f32 :=
  addf
    (mulf (matmul dot_S512x64_S64x512_S512x512_1_0_0_1_n_n none q kT (constant S512x512 .f32 0x00000000#32))
      (broadcast S512x512 (Scalar.ofBits .f32 0x3E000000#32)))
    (broadcastTo S512x512 m15 broadcasts_S1x512_S512x512)

/-- The row maxima, from -∞ upward. -/
def maxV (s : FVec Ideal S512x512 .f32) : FVec Ideal S512 .f32 :=
  maximumf (broadcast S512 (Scalar.ofBits .f32 0xFF800000#32))
    (multiReduction .maximumf [1] S512 s 0xFF800000#32 reduces_S512x512_S512 (.inl rfl) rfl)

/-- The exponentials of the scores less their row's maximum. -/
def expV (s : FVec Ideal S512x512 .f32) : FVec Ideal S512x512 .f32 :=
  exp (subf s (broadcastTo S512x512 (shapeCast S512x1 (maxV s) shapeCasts_S512_S512x1) broadcasts_S512x1_S512x512))

/-- The rows normalised by their sums. -/
def softV (s : FVec Ideal S512x512 .f32) : FVec Ideal S512x512 .f32 :=
  divf (expV s)
    (broadcastTo S512x512
      (shapeCast S512x1 (multiReduction .add [1] S512 (expV s) 0x00000000#32 reduces_S512x512_S512 (.inl rfl) rfl)
        shapeCasts_S512_S512x1)
      broadcasts_S512x1_S512x512)

/-- The weighted sums of the value rows. -/
def ctxV (p : FVec Ideal S512x512 .f32) (v : FVec Ideal S512x64 .bf16) : FVec Ideal S512x64 .f32 :=
  matmul dot_S512x512_S512x64_S512x64_1_0_0_1_n_n none (truncf .bf16 p bitsLt_bf16_f32) v
    (constant S512x64 .f32 0x00000000#32)

/-- One head. -/
def headV (q : FVec Ideal S512x64 .bf16) (kT : FVec Ideal S64x512 .bf16) (v : FVec Ideal S512x64 .bf16)
    (m15 : FVec Ideal S1x512 .f32) : FVec Ideal S512x64 .f32 :=
  ctxV (softV (scoreV q kT m15)) v

theorem scoreV_apply (q : FVec Ideal S512x64 .bf16) (kT : FVec Ideal S64x512 .bf16) (m15 : FVec Ideal S1x512 .f32)
    (i j : Fin 512) :
    scoreV q kT m15 (ix2 i j)
      = Cert.Attn.score (fun s e => q (ix2 s e)) (fun s e => kT (ix2 e s)) (fun j => m15 (ix2 0 j)) i j := by
  show matmul dot_S512x64_S64x512_S512x512_1_0_0_1_n_n none q kT (constant (F := Ideal) S512x512 .f32 0x00000000#32) (ix2 i j)
        * Ideal.ofBits .f32 0x3E000000#32
      + broadcastTo S512x512 m15 broadcasts_S1x512_S512x512 (ix2 i j) = _
  rw [mm_score_apply, broadcastTo_1b_ab_apply]
  rfl

theorem maxV_apply (s : FVec Ideal S512x512 .f32) (i : Fin 512) :
    maxV s (ix1 i) = Cert.Attn.rowMax (fun a b => s (ix2 a b)) i := by
  exact congrArg (max (Ideal.ofBits .f32 0xFF800000#32))
    (rowMax_apply s 0xFF800000#32 reduces_S512x512_S512 (.inl rfl) rfl i)

theorem expV_apply (s : FVec Ideal S512x512 .f32) (i j : Fin 512) :
    expV s (ix2 i j) = Cert.Attn.expo (fun a b => s (ix2 a b)) i j := by
  show Ideal.exp (s (ix2 i j)
      - broadcastTo S512x512 (shapeCast S512x1 (maxV s) shapeCasts_S512_S512x1) broadcasts_S512x1_S512x512 (ix2 i j)) = _
  rw [broadcastTo_a1_ab_apply, shapeCast_a_a1_apply, maxV_apply]
  rfl

theorem softV_apply (s : FVec Ideal S512x512 .f32) (i j : Fin 512) :
    softV s (ix2 i j) = Cert.Attn.prob (fun a b => s (ix2 a b)) i j := by
  have h1 : multiReduction (F := Ideal) .add [1] S512 (expV s) 0x00000000#32 reduces_S512x512_S512 (.inl rfl) rfl (ix1 i)
      = ∑ k : Fin 512, Cert.Attn.expo (fun a b => s (ix2 a b)) i k :=
    (rowSum_apply (expV s) 0x00000000#32 reduces_S512x512_S512 (.inl rfl) rfl i).trans
      (Finset.sum_congr rfl fun k _ => expV_apply s i k)
  show Ideal.div (expV s (ix2 i j))
      (broadcastTo S512x512
        (shapeCast S512x1 (multiReduction (F := Ideal) .add [1] S512 (expV s) 0x00000000#32 reduces_S512x512_S512 (.inl rfl) rfl)
          shapeCasts_S512_S512x1)
        broadcasts_S512x1_S512x512 (ix2 i j)) = _
  rw [broadcastTo_a1_ab_apply, shapeCast_a_a1_apply, expV_apply]
  exact congrArg (Ideal.div _) h1

theorem ctxV_apply (p : FVec Ideal S512x512 .f32) (v : FVec Ideal S512x64 .bf16) (i : Fin 512) (d : Fin 64) :
    ctxV p v (ix2 i d) = ∑ j : Fin 512, p (ix2 i j) * v (ix2 j d) :=
  mm_ctx_apply _ v i d

/-- One head as the body computes it is the specification's head of the same rows. -/
theorem headV_apply (q : FVec Ideal S512x64 .bf16) (kT : FVec Ideal S64x512 .bf16) (v : FVec Ideal S512x64 .bf16)
    (m15 : FVec Ideal S1x512 .f32) (i : Fin 512) (d : Fin 64) :
    headV q kT v m15 (ix2 i d)
      = Cert.Attn.head (fun s e => q (ix2 s e)) (fun s e => kT (ix2 e s)) (fun s e => v (ix2 s e))
          (fun j => m15 (ix2 0 j)) i d := by
  have hs : (fun a b => scoreV q kT m15 (ix2 a b))
      = Cert.Attn.score (fun s e => q (ix2 s e)) (fun s e => kT (ix2 e s)) (fun j => m15 (ix2 0 j)) :=
    funext fun a => funext fun b => scoreV_apply q kT m15 a b
  unfold headV
  rw [ctxV_apply]
  unfold Cert.Attn.head
  refine Finset.sum_congr rfl fun j _ => ?_
  rw [softV_apply, hs]

end Cert.KernelIdeal.KValue

end
-- ==== Proof.PayProj.lean ====
/-
  The fused projection as the kernel body computes it, read at an entry: the matrix product of the activations
  (the leading unit axis dropped, the change of format the identity on the extended reals) with the weights,
  plus the bias row broadcast down the rows.
-/
import proofs.«138020_j64158221467860_2_alg».proof.Proof.Gen.KernelIdeal.Skeleton
import proofs.«138020_j64158221467860_2_alg».proof.Proof.Spec
import proofs.«138020_j64158221467860_2_alg».proof.Proof.MatmulForms
import Idealize.ShloMosaic.Lib.ValueLayout

namespace Cert.KernelIdeal.KValue

open Idealize.ShloMosaic Idealize.ShloMosaic.ValueIdx Cert.KernelIdeal Cert.KernelIdeal.Gen

/-- The stored projection block at row s, column f is the specification's projection of the loaded activations,
    weights and bias. -/
theorem pay1_apply (v0 : Vec Ideal S1x512x1024 .f32) (v3 : Vec Ideal S1024x3072 .bf16) (v5 : Vec Ideal S1x3072 .f32)
    (s : Fin 512) (f : Fin 3072) :
    Gen.k0_pay1 v0 v3 v5 (ix2 s f)
      = Cert.Attn.proj (fun s h => v0 (ix3 0 s h)) (fun h f => v3 (ix2 h f)) (fun f => v5 (ix2 0 f)) s f := by
  unfold Gen.k0_pay1
  rw [shapeCast_self, shapeCast_self, shapeCast_self]
  show matmul dot_S512x1024_S1024x3072_S512x3072_1_0_0_1_n_n none
        (truncf .bf16 (shapeCast S512x1024 v0 shapeCasts_S1x512x1024_S512x1024) bitsLt_bf16_f32) v3
        (constant (F := Ideal) S512x3072 .f32 0x00000000#32) (ix2 s f)
      + broadcastTo S512x3072 v5 broadcasts_S1x3072_S512x3072 (ix2 s f) = _
  rw [mm_proj_apply, broadcastTo_1b_ab_apply]
  unfold Cert.Attn.proj
  refine congrArg (· + v5 (ix2 0 f)) (Finset.sum_congr rfl fun c _ => ?_)
  show shapeCast S512x1024 v0 shapeCasts_S1x512x1024_S512x1024 (ix2 s c) * v3 (ix2 c f) = _
  rw [shapeCast_1ab_ab_apply]

end Cert.KernelIdeal.KValue
-- ==== Proof.PayIsSpec.lean ====
/-
  The kernel body's arithmetic is the specification's.

  The stored 128-column block of the context holds two heads side by side: columns 0..63 are the head computed from
  columns 0..63 of the three loaded 128-column operands, columns 64..127 the head computed from their columns 64..127.
  Column c of the block is therefore head c / 64 at column c % 64.
-/
import proofs.«138020_j64158221467860_2_alg».proof.Proof.Gen.KernelIdeal.Skeleton
import proofs.«138020_j64158221467860_2_alg».proof.Proof.Spec
import proofs.«138020_j64158221467860_2_alg».proof.Proof.HeadValue
import proofs.«138020_j64158221467860_2_alg».proof.Proof.PayProj
import Idealize.ShloMosaic.Lib.ValueLayout

namespace Cert.KernelIdeal.KValue

open Idealize.ShloMosaic Idealize.ShloMosaic.ValueIdx Cert.KernelIdeal Cert.KernelIdeal.Gen

/-- The head computed from the 64 columns starting at o = 64 n of the three operands (the key piece transposed
    before the product) is the specification's head of those columns. -/
theorem piece_head (o : Nat) (n : Fin 2) (ho : o = 64 * n.val) (h : S512x128.Slices ![0, o] S512x64)
    (v28 v30 v32 : Vec Ideal S512x128 .bf16) (m15 : FVec Ideal S1x512 .f32) (i : Fin 512) (d : Fin 64) :
    headV (extractStridedSlice S512x64 ![0, o] v28 h)
        (transpose S64x512 [1, 0] (extractStridedSlice S512x64 ![0, o] v30 h) transposes_S512x64_p1_0_S64x512)
        (extractStridedSlice S512x64 ![0, o] v32 h) m15 (ix2 i d)
      = Cert.Attn.head
          (fun s e => v28 (ix2 s ⟨64 * n.val + e.val, by have := n.isLt; have := e.isLt; omega⟩))
          (fun s e => v30 (ix2 s ⟨64 * n.val + e.val, by have := n.isLt; have := e.isLt; omega⟩))
          (fun s e => v32 (ix2 s ⟨64 * n.val + e.val, by have := n.isLt; have := e.isLt; omega⟩))
          (fun j => m15 (ix2 0 j)) i d := by
  have e28 : (fun (s : Fin 512) (e : Fin 64) => extractStridedSlice S512x64 ![0, o] v28 h (ix2 s e))
      = fun s e => v28 (ix2 s ⟨64 * n.val + e.val, by have := n.isLt; have := e.isLt; omega⟩) :=
    funext fun s => funext fun e => slice2_axis1_apply o v28 h s e _ (by show 64 * n.val + e.val = o + e.val; omega)
  have e30 : (fun (s : Fin 512) (e : Fin 64) =>
        transpose S64x512 [1, 0] (extractStridedSlice S512x64 ![0, o] v30 h) transposes_S512x64_p1_0_S64x512 (ix2 e s))
      = fun s e => v30 (ix2 s ⟨64 * n.val + e.val, by have := n.isLt; have := e.isLt; omega⟩) :=
    funext fun s => funext fun e =>
      (transpose_ix2_apply (extractStridedSlice S512x64 ![0, o] v30 h) transposes_S512x64_p1_0_S64x512 e s).trans
        (slice2_axis1_apply o v30 h s e _ (by show 64 * n.val + e.val = o + e.val; omega))
  have e32 : (fun (s : Fin 512) (e : Fin 64) => extractStridedSlice S512x64 ![0, o] v32 h (ix2 s e))
      = fun s e => v32 (ix2 s ⟨64 * n.val + e.val, by have := n.isLt; have := e.isLt; omega⟩) :=
    funext fun s => funext fun e => slice2_axis1_apply o v32 h s e _ (by show 64 * n.val + e.val = o + e.val; omega)
  rw [headV_apply, e28, e30, e32]

/-- The mask row with its leading unit axis dropped. -/
theorem pay2_apply (v14 : Vec Ideal S1x1x512 .f32) (j : Fin 512) : Gen.k0_pay2 v14 (ix2 0 j) = v14 (ix3 0 0 j) :=
  shapeCast_1ab_ab_apply v14 shapeCasts_S1x1x512_S1x512 0 j

/-- The stored block at column 64 n + d is head n of the loaded operands at column d. -/
theorem pay3_piece (v14 : Vec Ideal S1x1x512 .f32) (v28 v30 v32 : Vec Ideal S512x128 .bf16) (i : Fin 512)
    (n : Fin 2) (d : Fin 64) :
    Gen.k0_pay3 v14 (Gen.k0_pay4 (Gen.k0_pay2 v14) v28 v30 v32) (Gen.k0_pay5 v28) (Gen.k0_pay6 v32) (Gen.k0_pay7 v30)
        (constant (F := Ideal) S512x512 .f32 0x00000000#32)
        (ix3 0 i ⟨64 * n.val + d.val, by have := n.isLt; have := d.isLt; omega⟩)
      = Cert.Attn.head
          (fun s e => v28 (ix2 s ⟨64 * n.val + e.val, by have := n.isLt; have := e.isLt; omega⟩))
          (fun s e => v30 (ix2 s ⟨64 * n.val + e.val, by have := n.isLt; have := e.isLt; omega⟩))
          (fun s e => v32 (ix2 s ⟨64 * n.val + e.val, by have := n.isLt; have := e.isLt; omega⟩))
          (fun j => v14 (ix3 0 0 j)) i d := by
  have hm : (fun j : Fin 512 => Gen.k0_pay2 v14 (ix2 0 j)) = fun j => v14 (ix3 0 0 j) :=
    funext fun j => pay2_apply v14 j
  show shapeCast S1x512x128
      (concatenate S512x128 1
        [⟨S512x64, headV (extractStridedSlice S512x64 ![0, 0] v28 slices_S512x128_o0_0_S512x64)
            (transpose S64x512 [1, 0] (extractStridedSlice S512x64 ![0, 0] v30 slices_S512x128_o0_0_S512x64)
              transposes_S512x64_p1_0_S64x512)
            (extractStridedSlice S512x64 ![0, 0] v32 slices_S512x128_o0_0_S512x64) (Gen.k0_pay2 v14)⟩,
         ⟨S512x64, headV (extractStridedSlice S512x64 ![0, 64] v28 slices_S512x128_o0_64_S512x64)
            (transpose S64x512 [1, 0] (extractStridedSlice S512x64 ![0, 64] v30 slices_S512x128_o0_64_S512x64)
              transposes_S512x64_p1_0_S64x512)
            (extractStridedSlice S512x64 ![0, 64] v32 slices_S512x128_o0_64_S512x64) (Gen.k0_pay2 v14)⟩]
        concatenates_S512x64_S512x64_S512x128_d1)
      shapeCasts_S512x128_S1x512x128 (ix3 0 i ⟨64 * n.val + d.val, by have := n.isLt; have := d.isLt; omega⟩) = _
  rw [shapeCast_ab_1ab_apply, ← hm]
  match n with
  | ⟨0, _⟩ =>
    refine (concatenate_pair_apply_left (1 : Fin S512x128.rank) _ _ concatenates_S512x64_S512x64_S512x128_d1 _ rfl (ix2 i d)
      (fun b => by
        match b with
        | ⟨0, _⟩ => rfl
        | ⟨1, _⟩ => show d.val = 64 * 0 + d.val; omega)).trans ?_
    exact piece_head 0 0 rfl slices_S512x128_o0_0_S512x64 v28 v30 v32 (Gen.k0_pay2 v14) i d
  | ⟨1, _⟩ =>
    refine (concatenate_pair_apply_right (1 : Fin S512x128.rank) _ _ concatenates_S512x64_S512x64_S512x128_d1 _ rfl rfl (ix2 i d)
      (fun b hb => by
        match b with
        | ⟨0, _⟩ => rfl
        | ⟨1, _⟩ => exact absurd rfl hb)
      (by show d.val + 64 = 64 * 1 + d.val; omega)).trans ?_
    exact piece_head 64 1 rfl slices_S512x128_o0_64_S512x64 v28 v30 v32 (Gen.k0_pay2 v14) i d

/-- The stored block at row i, column c is head c / 64 of the loaded operands at column c % 64. -/
theorem pay3_apply (v14 : Vec Ideal S1x1x512 .f32) (v28 v30 v32 : Vec Ideal S512x128 .bf16) (i : Fin 512) (c : Fin 128) :
    Gen.k0_pay3 v14 (Gen.k0_pay4 (Gen.k0_pay2 v14) v28 v30 v32) (Gen.k0_pay5 v28) (Gen.k0_pay6 v32) (Gen.k0_pay7 v30)
        (constant (F := Ideal) S512x512 .f32 0x00000000#32) (ix3 0 i c)
      = Cert.Attn.head
          (fun s e => v28 (ix2 s ⟨64 * (c.val / 64) + e.val, by have := c.isLt; have := e.isLt; omega⟩))
          (fun s e => v30 (ix2 s ⟨64 * (c.val / 64) + e.val, by have := c.isLt; have := e.isLt; omega⟩))
          (fun s e => v32 (ix2 s ⟨64 * (c.val / 64) + e.val, by have := c.isLt; have := e.isLt; omega⟩))
          (fun j => v14 (ix3 0 0 j)) i ⟨c.val % 64, Nat.mod_lt _ (by decide)⟩ := by
  have hc : c = ⟨64 * (⟨c.val / 64, by have := c.isLt; omega⟩ : Fin 2).val
      + (⟨c.val % 64, Nat.mod_lt _ (by decide)⟩ : Fin 64).val, by have := c.isLt; omega⟩ :=
    Fin.ext (Nat.div_add_mod c.val 64).symm
  exact (congrArg (fun c' => Gen.k0_pay3 v14 (Gen.k0_pay4 (Gen.k0_pay2 v14) v28 v30 v32) (Gen.k0_pay5 v28) (Gen.k0_pay6 v32)
      (Gen.k0_pay7 v30) (constant (F := Ideal) S512x512 .f32 0x00000000#32) (ix3 0 i c')) hc).trans
    (pay3_piece v14 v28 v30 v32 i ⟨c.val / 64, by have := c.isLt; omega⟩ ⟨c.val % 64, Nat.mod_lt _ (by decide)⟩)

end Cert.KernelIdeal.KValue
-- ==== Proof.KIOut.lean ====
/-
  The output block of grid point t, entry by entry: row q, column 128 k + c of the block is head 2 k + c / 64 at
  column c % 64 of that head, over the fused projection of batch row t — the specification's value at batch row t.
-/
import proofs.«138020_j64158221467860_2_alg».proof.Proof.KIInputs
import proofs.«138020_j64158221467860_2_alg».proof.Proof.PayIsSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

open Idealize.ShloMosaic.ValueIdx Cert.Attn

/-- What the launch leaves in its result array [8, 512, 1024], as one function of the program's arguments. -/
def G6 (c : Dev nD) : S8x512x1024.Idx → EReal := fun j =>
  attn (fun b s h => m ((c : Thread nD τ).loc main_arg0) (ix4 b 0 s h)) (fun h f => wcat (F := Ideal) m c (ix2 h f))
    (fun f => bcat (F := Ideal) m c (ix1 f)) (fun b k => m ((c : Thread nD τ).loc main_arg1) (ix4 b 0 0 k))
    (j 0) (j 1) ⟨(j 2).val / 64, by have : (j 2).val < 1024 := (j 2).isLt; omega⟩ ⟨(j 2).val % 64, Nat.mod_lt _ (by decide)⟩

/-- Two heads over equal operands at equal columns are equal. -/
theorem head_congr {q q' k k' v v' : Fin 512 → Fin 64 → EReal} {mk mk' : Fin 512 → EReal} {i : Fin 512} {d d' : Fin 64}
    (hq : ∀ s e, q s e = q' s e) (hk : ∀ s e, k s e = k' s e) (hv : ∀ s e, v s e = v' s e) (hm : ∀ j, mk j = mk' j)
    (hd : d.val = d'.val) : head q k v mk i d = head q' k' v' mk' i d' := by
  have e1 : q = q' := funext fun s => funext (hq s)
  have e2 : k = k' := funext fun s => funext (hk s)
  have e3 : v = v' := funext fun s => funext (hv s)
  have e4 : mk = mk' := funext hm
  have e5 : d = d' := Fin.ext hd
  rw [e1, e2, e3, e4, e5]

/-- The fused projection over the blocks of grid point t is the projection of batch row t. -/
theorem proj_in (c : Dev nD) (t : Fin cfg0.N) (s : Fin 512) (f : Fin 3072) :
    proj (fun s h => (iblk m c 0 t : S1x512x1024.Idx → EReal) (ix3 0 s h)) (fun h f => (iblk m c 1 t : S1024x3072.Idx → EReal) (ix2 h f))
        (fun f => (iblk m c 2 t : S1x3072.Idx → EReal) (ix2 0 f)) s f
      = proj (fun s h => m ((c : Thread nD τ).loc main_arg0) (ix4 (rowOf t) 0 s h)) (fun h f => wcat (F := Ideal) m c (ix2 h f))
        (fun f => bcat (F := Ideal) m c (ix1 f)) s f := by
  unfold proj
  simp only [inX, inW, inB]

/-- One entry of one trip's piece. -/
theorem piece_eq (c : Dev nD) (t : Fin cfg0.N) (k : Fin k0_t1_loop.trips) (x : S1x512x128.Idx) :
    tripPay (F := Ideal) scM0_0 (iblk m c 3 t) (scratchAfter scM0_0 (iblk m c 0 t) (iblk m c 1 t) (iblk m c 2 t)) k x
      = G6 m c (ix3 (rowOf t) ((Rect.unit (s := S1x512x1024) (k0_off3 k) S1x512x128.size (k0_off3_inb k)).emb x 1)
          ((Rect.unit (s := S1x512x1024) (k0_off3 k) S1x512x128.size (k0_off3_inb k)).emb x 2)) := by
  have hk : k.val < 8 := Nat.lt_of_lt_of_le k.isLt k0_t1_abs.2.1
  obtain ⟨z, q, cc, rfl⟩ : ∃ (z : Fin 1) (q : Fin 512) (cc : Fin 128), x = ix3 z q cc := ⟨x 0, x 1, x 2, eq_ix3 x⟩
  obtain rfl : z = 0 := Subsingleton.elim _ _
  have hcc : cc.val < 128 := cc.isLt
  have h3 := k0_off3_eq k
  have hQ := k0_off1_eq k
  have hK : k0_off2 k 1024#32 = ![0, 1024 * 0 + 128 * k.val + 1024] := k0_off2_eq k ⟨0, by decide⟩
  have hV : k0_off2 k 2048#32 = ![0, 1024 * 1 + 128 * k.val + 1024] := k0_off2_eq k ⟨1, by decide⟩
  have e1 : (Rect.unit (s := S1x512x1024) (k0_off3 k) S1x512x128.size (k0_off3_inb k)).emb (ix3 0 q cc) 1 = q := by
    apply Fin.ext
    show (k0_off3 k) 1 + 1 * q.val = q.val
    rw [congrFun h3 1]; show 0 + 1 * q.val = q.val; omega
  have e2 : (Rect.unit (s := S1x512x1024) (k0_off3 k) S1x512x128.size (k0_off3_inb k)).emb (ix3 0 q cc) 2
      = (⟨128 * k.val + cc.val, by omega⟩ : Fin 1024) := by
    apply Fin.ext
    show (k0_off3 k) 2 + 1 * cc.val = 128 * k.val + cc.val
    rw [congrFun h3 2]; show 128 * k.val + 1 * cc.val = 128 * k.val + cc.val; omega
  rw [e1, e2]
  refine (Cert.KernelIdeal.KValue.pay3_apply _ _ _ _ q cc).trans ?_
  unfold G6 attn
  refine head_congr ?_ ?_ ?_ (fun j => inM m c t j) (by show cc.val % 64 = (128 * k.val + cc.val) % 64; omega)
  · intro s e
    have he : e.val < 64 := e.isLt
    refine (slab_apply scM0_0 _ (k0_off1 k) (k0_off1_inb k) s _ (col 0 (by omega) ⟨(128 * k.val + cc.val) / 64, by omega⟩ e)
      (by rw [congrFun hQ 0]; rfl)
      (by show 0 + 64 * ((128 * k.val + cc.val) / 64) + e.val = k0_off1 k 1 + (64 * (cc.val / 64) + e.val)
          rw [congrFun hQ 1]; show _ = 128 * k.val + _; omega)).trans ?_
    exact (Cert.KernelIdeal.KValue.pay1_apply _ _ _ s _).trans (proj_in m c t s _)
  · intro s e
    have he : e.val < 64 := e.isLt
    refine (slab_apply scM0_0 _ (k0_off2 k 1024#32) (k0_off2_inb k 0) s _ (col 1024 (by omega) ⟨(128 * k.val + cc.val) / 64, by omega⟩ e)
      (by rw [congrFun hK 0]; rfl)
      (by show 1024 + 64 * ((128 * k.val + cc.val) / 64) + e.val = k0_off2 k 1024#32 1 + (64 * (cc.val / 64) + e.val)
          rw [congrFun hK 1]; show _ = 1024 * 0 + 128 * k.val + 1024 + _; omega)).trans ?_
    exact (Cert.KernelIdeal.KValue.pay1_apply _ _ _ s _).trans (proj_in m c t s _)
  · intro s e
    have he : e.val < 64 := e.isLt
    refine (slab_apply scM0_0 _ (k0_off2 k 2048#32) (k0_off2_inb k 1) s _ (col 2048 (by omega) ⟨(128 * k.val + cc.val) / 64, by omega⟩ e)
      (by rw [congrFun hV 0]; rfl)
      (by show 2048 + 64 * ((128 * k.val + cc.val) / 64) + e.val = k0_off2 k 2048#32 1 + (64 * (cc.val / 64) + e.val)
          rw [congrFun hV 1]; show _ = 1024 * 1 + 128 * k.val + 1024 + _; omega)).trans ?_
    exact (Cert.KernelIdeal.KValue.pay1_apply _ _ _ s _).trans (proj_in m c t s _)

/-- The output staging buffer after grid point t holds batch row t of that function. -/
theorem out_eq (c : Dev nD) (t : Fin cfg0.N) (y : S1x512x1024.Idx) :
    outsAt0 (F := Ideal) m c t y = G6 m c (ix3 (rowOf t) (y 1) (y 2)) := by
  unfold outsAt0 out0_4
  refine View.read_writes_apply_of_pieces (Val := Elt Ideal) _ _ ((fun y => G6 m c (ix3 (rowOf t) (y 1) (y 2))) : S1x512x1024.Idx → Elt Ideal .f32) _ ?_ y (cover0_4 c _ _ _ _ _ _ _ _ _ _ _ _ _ _ _ _ _ y)
  intro p hp x
  obtain ⟨k, rfl⟩ := run_piece_is_trip c _ _ _ _ _ _ _ _ _ _ _ _ _ _ _ _ _ p hp
  exact piece_eq m c t k x

end Cert.KernelIdeal.Hand

end
-- ==== Proof.KIFinal.lean ====
/-
  From the blocks to the result.  The eight grid points write back the eight batch rows of the launch's result
  array, which tile it; the last host line reshapes it to 8 × 1 × 512 × 1024.  So the program ends with its result
  at the specification's function of its arguments, and its arguments unchanged.
-/
import proofs.«138020_j64158221467860_2_alg».proof.Proof.KIOut
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

open Idealize.ShloMosaic.ValueIdx Cert.Attn

/-- What grid point t writes back is block t of the result function. -/
theorem flushed_eq (c : Dev nD) (t : Fin cfg0.N) :
    (dats m 0 c).flushed 4 t = ((cfg0.win 4).blk t).view.read (Elt Ideal) (G6 m c) := by
  show (cfg0.win 4).cut (grid0.coords t) ((dats m 0 c).after 4 t) = _
  rw [after0_4]
  funext y
  show outsAt0 m c t y = G6 m c (((cfg0.win 4).blk t).view.emb y)
  rw [oblk_emb, out_eq]

/-- An index of the result array is in point t's block iff each coordinate is in the block's range. -/
theorem mem_blk4 (t : Fin cfg0.N) (i : S8x512x1024.Idx) :
    i ∈ ((cfg0.win 4).blk t).view.set ↔ ∀ a : Fin 3, win0_4.index t a * S1x512x1024.size a ≤ (i a).val ∧ (i a).val < win0_4.index t a * S1x512x1024.size a + S1x512x1024.size a := by
  show i ∈ ((View.whole main_v6).slice (win0_4.rect t)).set ↔ _
  rw [View.set_slice_whole, Rect.mem_set_unit]
  exact Iff.rfl

/-- Every index of the result array is in the block of the grid point named by its batch row. -/
theorem cover4 (i : S8x512x1024.Idx) :
    ∃ t : Fin cfg0.N, (cfg0.win 4).flush t = true ∧ i ∈ ((cfg0.win 4).blk t).view.set := by
  have hi0 : (i 0).val < 8 := (i 0).isLt
  have hi1 : (i 1).val < 512 := (i 1).isLt
  have hi2 : (i 2).val < 1024 := (i 2).isLt
  have hN : cfg0.N = 8 := N_0
  obtain ⟨-, -, -, -, -, -, -, -, -, -, e0, e1, e2⟩ := idx_facts ⟨(i 0).val, by rw [hN]; exact hi0⟩
  refine ⟨⟨(i 0).val, by rw [hN]; exact hi0⟩, flush0_4 _, ?_⟩
  rw [mem_blk4]
  intro a
  match a with
  | ⟨0, _⟩ => show win0_4.index _ (0 : Fin 3) * 1 ≤ (i 0).val ∧ (i 0).val < win0_4.index _ (0 : Fin 3) * 1 + 1; rw [e0]; dsimp only; omega
  | ⟨1, _⟩ => show win0_4.index _ (1 : Fin 3) * 512 ≤ (i 1).val ∧ (i 1).val < win0_4.index _ (1 : Fin 3) * 512 + 512; rw [e1]; omega
  | ⟨2, _⟩ => show win0_4.index _ (2 : Fin 3) * 1024 ≤ (i 2).val ∧ (i 2).val < win0_4.index _ (2 : Fin 3) * 1024 + 1024; rw [e2]; omega

/-- The launch's result array after the last grid point. -/
theorem final4 (c : Dev nD) : (dats m 0 c).arrAt 4 cfg0.N = G6 m c :=
  (dats m 0 c).arrAt_eq_of_cover 4 (G6 m c) (fun t _ => flushed_eq m c t) cover4

/-- What the last host line leaves in the program's result: the launch's result reshaped. -/
theorem tail_v7 (c : Dev nD) :
    Pipeline.afterTail₀ cfgs (dats m) 0 (V0 m) [hostOps1] c main_v7
      = shapeCast S8x1x512x1024 (G6 m c) shapeCasts_S8x512x1024_S8x1x512x1024 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.tc.devRef main_v6) = G6 m c :=
    (Pipeline.withArrays_arr spec0 launch0.win.arr_inj c _ _ 4).trans (final4 m c)
  exact congrArg (fun A => shapeCast S8x1x512x1024 A shapeCasts_S8x512x1024_S8x1x512x1024) e

/-- The reshaped result, entry by entry, is the specification's function of the arguments. -/
theorem result_is_spec (c : Dev nD) :
    shapeCast S8x1x512x1024 (G6 m c) shapeCasts_S8x512x1024_S8x1x512x1024
      = Cert.Attn.G (m ((c : Thread nD τ).loc main_arg0)) (m ((c : Thread nD τ).loc main_arg1)) (wcat (F := Ideal) m c) (bcat (F := Ideal) m c) := by
  funext i
  have h0 : (i 0).val < 8 := (i 0).isLt
  have h1 : (i 1).val < 1 := (i 1).isLt
  have h2 : (i 2).val < 512 := (i 2).isLt
  have h3 : (i 3).val < 1024 := (i 3).isLt
  rw [shapeCast_apply (G6 m c) shapeCasts_S8x512x1024_S8x1x512x1024 i (ix3 (i 0) (i 2) (i 3))
    (by rewrite [Shape.rowMajor_val_three, Shape.rowMajor_val_four]
        show ((i 0).val * 512 + (i 2).val) * 1024 + (i 3).val = (((i 0).val * 1 + (i 1).val) * 512 + (i 2).val) * 1024 + (i 3).val
        omega)]
  rfl

/-- THE VALUE RUN: the program terminates without a fault, its result is the specification's function of its
    arguments, and its arguments end unchanged. -/
theorem value_run : θ_run defs (onTc (τ := τ) (main (F := Ideal))) ⟨m, fun _ => 0, ρ⟩ (fun r => ∀ c : Dev nD,
      r.2.mem ((c.tc : Thread nD τ).loc main_v7) = Cert.Attn.G (m ((c : Thread nD τ).loc main_arg0)) (m ((c : Thread nD τ).loc main_arg1)) (wcat (F := Ideal) m c) (bcat (F := Ideal) m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(((h c).2 main_v7 (Pipeline.mem_restRefs_of main_v7 (by decide) (by decide))).trans (tail_v7 m c)).trans (result_is_spec m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Hand

end
-- ==== Proof.RefProj.lean ====
/-
  The reference program's fused projection, and the three per-head arrays cut out of it, read at an index:
  entry (b, s, f) of the projection is the specification's projection of batch row b at (s, f), and entry
  (b, n, s, d) of the query, key and value arrays is that projection at column o + 64 n + d with
  o = 0, 1024, 2048.
-/
import proofs.«138020_j64158221467860_2_alg».proof.Proof.Gen.ReferenceIdeal.Read
import proofs.«138020_j64158221467860_2_alg».proof.Proof.Spec

noncomputable section

namespace Cert.ReferenceIdeal.RefValue

open Idealize.ShloMosaic Idealize.ShloMosaic.ValueIdx Cert.ReferenceIdeal Cert.Attn

variable (x0 : (⟨S8x1x512x1024, .f32⟩ : BufTy).Contents (Elt Ideal)) (x1 : (⟨S8x1x1x512, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-- The specification's projection of batch row b, over the program's arguments: the weights and the biases enter
    as the two joined arrays. -/
abbrev P (b : Fin 8) : Fin 512 → Fin 3072 → EReal :=
  proj (fun s h => x0 (ix4 b 0 s h)) (fun h f => Read.val_main_v1 (F := Ideal) x2 x4 x6 (ix2 h f))
    (fun f => Read.val_main_v2 (F := Ideal) x3 x5 x7 (ix1 f))

/-- The projection array at (b, s, f). -/
theorem v6_at (b : Fin 8) (s : Fin 512) (f : Fin 3072) :
    Read.val_main_v6 (F := Ideal) x0 x2 x3 x4 x5 x6 x7 (ix3 b s f) = P x0 x2 x3 x4 x5 x6 x7 b s f := by
  rw [Read.val_main_v6_apply, Read.val_main_v3_apply, Read.val_main_v5_apply, Read.val_main_v4_apply]
  show (∑ k : Fin 1024, _ * _) + _ = (∑ h : Fin 1024, _ * _) + _
  refine congrArg₂ (· + ·) (Finset.sum_congr rfl fun k _ => congrArg₂ (· * ·) ?_ (congrArg _ ?_)) (congrArg _ ?_)
  · rw [Read.val_main_v0_apply]
    refine congrArg x0 ?_
    funext a; apply Fin.ext
    have hb := b.isLt; have hs := s.isLt; have hk := k.isLt
    match a with
    | ⟨0, _⟩ => show ((b.val * 512 + s.val) * 1024 + k.val) / 524288 = b.val; omega
    | ⟨1, _⟩ => rfl
    | ⟨2, _⟩ => show ((b.val * 512 + s.val) * 1024 + k.val) / 1024 % 512 = s.val; omega
    | ⟨3, _⟩ => show ((b.val * 512 + s.val) * 1024 + k.val) % 1024 = k.val; omega
  · funext a; apply Fin.ext
    match a with
    | ⟨0, _⟩ => rfl
    | ⟨1, _⟩ => rfl
  · funext a; apply Fin.ext
    match a with
    | ⟨0, _⟩ => rfl

/-- Where entry (b, n, s, d) of a per-head array sits in the slice it was cut from: row s, column 64 n + d. -/
theorem head_idx (b : Fin 8) (n : Fin 16) (s : Fin 512) (d : Fin 64) :
    Read.idx_main_v10 (Read.idx_main_v11 (ix4 b n s d))
      = ix3 b s (⟨64 * n.val + d.val, by have := n.isLt; have := d.isLt; omega⟩ : Fin 1024) := by
  funext a; apply Fin.ext
  have hb := b.isLt; have hn := n.isLt; have hs := s.isLt; have hd := d.isLt
  match a with
  | ⟨0, _⟩ => show (((b.val * 512 + s.val) * 16 + n.val) * 64 + d.val) / 524288 = b.val; omega
  | ⟨1, _⟩ => show (((b.val * 512 + s.val) * 16 + n.val) * 64 + d.val) / 1024 % 512 = s.val; omega
  | ⟨2, _⟩ => show (((b.val * 512 + s.val) * 16 + n.val) * 64 + d.val) % 1024 = 64 * n.val + d.val; omega

/-- The query array at (b, n, s, d) is the projection at column 64 n + d. -/
theorem v11_at (b : Fin 8) (n : Fin 16) (s : Fin 512) (d : Fin 64) :
    Read.val_main_v11 (F := Ideal) x0 x2 x3 x4 x5 x6 x7 (ix4 b n s d)
      = P x0 x2 x3 x4 x5 x6 x7 b s (col 0 (by omega) n d) := by
  rw [Read.val_main_v11_apply, Read.val_main_v10_apply, Read.val_main_v7_apply, head_idx]
  refine Eq.trans (congrArg _ ?_) (v6_at x0 x2 x3 x4 x5 x6 x7 b s (col 0 (by omega) n d))
  funext a; apply Fin.ext
  match a with
  | ⟨0, _⟩ => rfl
  | ⟨1, _⟩ => rfl
  | ⟨2, _⟩ => show 64 * n.val + d.val = 0 + 64 * n.val + d.val; omega

/-- The key array at (b, n, s, d) is the projection at column 1024 + 64 n + d. -/
theorem v13_at (b : Fin 8) (n : Fin 16) (s : Fin 512) (d : Fin 64) :
    Read.val_main_v13 (F := Ideal) x0 x2 x3 x4 x5 x6 x7 (ix4 b n s d)
      = P x0 x2 x3 x4 x5 x6 x7 b s (col 1024 (by omega) n d) := by
  rw [Read.val_main_v13_apply, Read.val_main_v12_apply, Read.val_main_v8_apply]
  refine Eq.trans (congrArg _ ?_) (v6_at x0 x2 x3 x4 x5 x6 x7 b s (col 1024 (by omega) n d))
  have e := head_idx b n s d
  funext a; apply Fin.ext
  match a with
  | ⟨0, _⟩ => exact congrArg (fun t : S8x512x1024.Idx => (t 0).val) e
  | ⟨1, _⟩ => exact congrArg (fun t : S8x512x1024.Idx => (t 1).val) e
  | ⟨2, _⟩ =>
    have e2 := congrArg (fun t : S8x512x1024.Idx => (t 2).val) e
    show 1024 + (Read.idx_main_v10 (Read.idx_main_v11 (ix4 b n s d)) 2).val = 1024 + 64 * n.val + d.val
    have e2' : (Read.idx_main_v10 (Read.idx_main_v11 (ix4 b n s d)) 2).val = 64 * n.val + d.val := e2
    omega

/-- The value array at (b, n, s, d) is the projection at column 2048 + 64 n + d. -/
theorem v15_at (b : Fin 8) (n : Fin 16) (s : Fin 512) (d : Fin 64) :
    Read.val_main_v15 (F := Ideal) x0 x2 x3 x4 x5 x6 x7 (ix4 b n s d)
      = P x0 x2 x3 x4 x5 x6 x7 b s (col 2048 (by omega) n d) := by
  rw [Read.val_main_v15_apply, Read.val_main_v14_apply, Read.val_main_v9_apply]
  refine Eq.trans (congrArg _ ?_) (v6_at x0 x2 x3 x4 x5 x6 x7 b s (col 2048 (by omega) n d))
  have e := head_idx b n s d
  funext a; apply Fin.ext
  match a with
  | ⟨0, _⟩ => exact congrArg (fun t : S8x512x1024.Idx => (t 0).val) e
  | ⟨1, _⟩ => exact congrArg (fun t : S8x512x1024.Idx => (t 1).val) e
  | ⟨2, _⟩ =>
    have e2' : (Read.idx_main_v10 (Read.idx_main_v11 (ix4 b n s d)) 2).val = 64 * n.val + d.val :=
      congrArg (fun t : S8x512x1024.Idx => (t 2).val) e
    show 2048 + (Read.idx_main_v10 (Read.idx_main_v11 (ix4 b n s d)) 2).val = 2048 + 64 * n.val + d.val
    omega

end Cert.ReferenceIdeal.RefValue

end
-- ==== Proof.LibHostMax4.lean ====
/-
  The host's maximum along the last axis of a four-dimensional array, read at an index: at (p, q, r) it is the
  fold of max, from the starting value, over the last coordinate.
-/
import Idealize.ShloMosaic.PureOps.Ideal.Laws
import Idealize.ShloMosaic.PureOps.Reduce
import Idealize.ShloMosaic.Lib.ValueIdx

noncomputable section

namespace Cert.Lib.HostMax4

open Idealize.ShloMosaic Idealize.ShloMosaic.ValueIdx

/-- The host's maximum along the last axis of an `n0 × n1 × n2 × n3` array: at `(p, q, r)`, the fold of `max` from
    the starting value over the `n3` coordinates. -/
theorem hostLastMax4_apply {n0 n1 n2 n3 : ℕ} {φ : FTy} {u : Shape} (x : FVec Ideal ⟨4, ![n0, n1, n2, n3]⟩ φ)
    (init : u.Idx → Ideal φ)
    (h' : Shape.ReducesTo ⟨4, ![n0, n1, n2, n3]⟩ [3] ⟨3, ![n0, n1, n2]⟩)
    (h : Shape.Reduces ⟨4, ![n0, n1, n2, n3]⟩ [3] ⟨3, ![n0, n1, n2]⟩)
    (hu : 0 < u.numel) (p : Fin n0) (q : Fin n1) (r : Fin n2) :
    Host.reduce FloatOps.maximumf x init h' hu (ix3 p q r)
      = (Finset.univ : Finset (Fin n3)).fold max (init (Shape.Idx.first hu)) (fun k => x (ix4 p q r k)) := by
  refine (Host.reduce_eq_fold_single FloatOps.maximumf x init h' h hu (ix3 p q r)).trans ?_
  refine congrArg (fun f => Finset.fold max (init (Shape.Idx.first hu)) f (Finset.univ : Finset (Fin n3))) ?_
  funext k
  refine congrArg x ?_
  funext ax; apply Fin.ext
  match ax with
  | ⟨0, _⟩ => rfl
  | ⟨1, _⟩ => rfl
  | ⟨2, _⟩ => rfl
  | ⟨3, _⟩ => rfl

end Cert.Lib.HostMax4

end
-- ==== Proof.RefSoftmax.lean ====
/-
  The reference program's scores and their soft maximum, read at an index: for batch row b and head n the score
  array at (i, j) is the specification's scaled, masked score of the head's queries and keys; the row maximum, the
  exponentials and the normalised weights are the specification's, stage by stage.
-/
import proofs.«138020_j64158221467860_2_alg».proof.Proof.RefProj
import proofs.«138020_j64158221467860_2_alg».proof.Proof.LibHostMax4

noncomputable section

namespace Cert.ReferenceIdeal.RefValue

open Idealize.ShloMosaic Idealize.ShloMosaic.ValueIdx Cert.ReferenceIdeal Cert.ReferenceIdeal.Gen Cert.Attn Cert.Lib.HostMax4

variable (x0 : (⟨S8x1x512x1024, .f32⟩ : BufTy).Contents (Elt Ideal)) (x1 : (⟨S8x1x1x512, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-- Head n's queries, keys and values in batch row b: the columns 64 n + d of the three thirds of the projection. -/
abbrev Qh (b : Fin 8) (n : Fin 16) : Fin 512 → Fin 64 → EReal :=
  fun s e => P x0 x2 x3 x4 x5 x6 x7 b s (col 0 (by omega) n e)
abbrev Kh (b : Fin 8) (n : Fin 16) : Fin 512 → Fin 64 → EReal :=
  fun s e => P x0 x2 x3 x4 x5 x6 x7 b s (col 1024 (by omega) n e)
abbrev Vh (b : Fin 8) (n : Fin 16) : Fin 512 → Fin 64 → EReal :=
  fun s e => P x0 x2 x3 x4 x5 x6 x7 b s (col 2048 (by omega) n e)
/-- Batch row b's mask. -/
abbrev Mk (b : Fin 8) : Fin 512 → EReal := fun k => x1 (ix4 b 0 0 k)
/-- The specification's score table of batch row b, head n. -/
abbrev Sc (b : Fin 8) (n : Fin 16) : Fin 512 → Fin 512 → EReal :=
  score (Qh x0 x2 x3 x4 x5 x6 x7 b n) (Kh x0 x2 x3 x4 x5 x6 x7 b n) (Mk x1 b)

/-- The score array at (b, n, i, j). -/
theorem v20_at (b : Fin 8) (n : Fin 16) (i j : Fin 512) :
    Read.val_main_v20 (F := Ideal) x0 x1 x2 x3 x4 x5 x6 x7 (ix4 b n i j) = Sc x0 x1 x2 x3 x4 x5 x6 x7 b n i j := by
  rw [Read.val_main_v20_apply, Read.val_main_v18_apply, Read.val_main_v16_apply, Read.val_main_v17_apply,
    Read.val_main_v19_apply, Read.val_main_cst_apply]
  show (∑ k : Fin 64, _ * _) * eighth + _ = (∑ d : Fin 64, _ * _) * eighth + _
  refine congrArg₂ (· + ·) (congrArg (· * eighth) (Finset.sum_congr rfl fun k _ => congrArg₂ (· * ·) ?_ ?_))
    (congrArg x1 ?_)
  · refine Eq.trans (congrArg _ ?_) (v11_at x0 x2 x3 x4 x5 x6 x7 b n i k)
    funext a; apply Fin.ext
    match a with
    | ⟨0, _⟩ => rfl
    | ⟨1, _⟩ => rfl
    | ⟨2, _⟩ => rfl
    | ⟨3, _⟩ => rfl
  · refine Eq.trans (congrArg _ ?_) (v13_at x0 x2 x3 x4 x5 x6 x7 b n j k)
    funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-- The row maxima at (b, n, i): the maximum of -∞ and the fold of max from -∞ along row i of the score table. -/
theorem v23_at (b : Fin 8) (n : Fin 16) (i : Fin 512) :
    Read.val_main_v23 (F := Ideal) x0 x1 x2 x3 x4 x5 x6 x7 (ix3 b n i) = rowMax (Sc x0 x1 x2 x3 x4 x5 x6 x7 b n) i := by
  rw [Read.val_main_v23_apply, Read.val_main_v22_apply, Read.val_main_cst_1_apply]
  show max negInf _ = max negInf _
  refine congrArg (max negInf) ?_
  unfold Read.val_main_v21
  refine (hostLastMax4_apply (φ := .f32) (Read.val_main_v20 (F := Ideal) x0 x1 x2 x3 x4 x5 x6 x7) (Read.val_main_cst_0 (F := Ideal))
    reducesTo_S8x16x512x512_S8x16x512_d3 (by decide) h_S_ b n i).trans ?_
  refine congrArg (fun f => Finset.fold max negInf f (Finset.univ : Finset (Fin 512))) ?_
  funext k
  exact v20_at x0 x1 x2 x3 x4 x5 x6 x7 b n i k

/-- The exponentials at (b, n, i, j). -/
theorem v27_at (b : Fin 8) (n : Fin 16) (i j : Fin 512) :
    Read.val_main_v27 (F := Ideal) x0 x1 x2 x3 x4 x5 x6 x7 (ix4 b n i j) = expo (Sc x0 x1 x2 x3 x4 x5 x6 x7 b n) i j := by
  rw [Read.val_main_v27_apply, Read.val_main_v26_apply, Read.val_main_v25_apply, Read.val_main_v24_apply]
  show Ideal.exp (_ - _) = Ideal.exp (_ - _)
  refine congrArg Ideal.exp (congrArg₂ (· - ·) (v20_at x0 x1 x2 x3 x4 x5 x6 x7 b n i j) ?_)
  refine Eq.trans (congrArg _ ?_) (v23_at x0 x1 x2 x3 x4 x5 x6 x7 b n i)
  funext a; apply Fin.ext
  match a with
  | ⟨0, _⟩ => rfl
  | ⟨1, _⟩ => rfl
  | ⟨2, _⟩ => rfl

/-- The row sums of the exponentials at (b, n, i). -/
theorem v28_at (b : Fin 8) (n : Fin 16) (i : Fin 512) :
    Read.val_main_v28 (F := Ideal) x0 x1 x2 x3 x4 x5 x6 x7 (ix3 b n i) = ∑ j : Fin 512, expo (Sc x0 x1 x2 x3 x4 x5 x6 x7 b n) i j := by
  rw [Read.val_main_v28_apply, Read.val_main_cst_2_apply]
  show Ideal.ofBits .f32 0x00000000#32 + _ = _
  rw [Ideal.ofBits_zero_f32, zero_add]
  refine Finset.sum_congr rfl fun k _ => ?_
  refine Eq.trans (congrArg _ ?_) (v27_at x0 x1 x2 x3 x4 x5 x6 x7 b n i k)
  funext a; apply Fin.ext
  match a with
  | ⟨0, _⟩ => rfl
  | ⟨1, _⟩ => rfl
  | ⟨2, _⟩ => rfl
  | ⟨3, _⟩ => rfl

/-- The normalised weights at (b, n, i, j). -/
theorem v31_at (b : Fin 8) (n : Fin 16) (i j : Fin 512) :
    Read.val_main_v31 (F := Ideal) x0 x1 x2 x3 x4 x5 x6 x7 (ix4 b n i j) = prob (Sc x0 x1 x2 x3 x4 x5 x6 x7 b n) i j := by
  rw [Read.val_main_v31_apply, Read.val_main_v30_apply, Read.val_main_v29_apply]
  show Ideal.div _ _ = Ideal.div _ _
  refine congrArg₂ Ideal.div (v27_at x0 x1 x2 x3 x4 x5 x6 x7 b n i j) ?_
  refine Eq.trans (congrArg _ ?_) (v28_at x0 x1 x2 x3 x4 x5 x6 x7 b n i)
  funext a; apply Fin.ext
  match a with
  | ⟨0, _⟩ => rfl
  | ⟨1, _⟩ => rfl
  | ⟨2, _⟩ => rfl

end Cert.ReferenceIdeal.RefValue

end
-- ==== Proof.RefIsSpec.lean ====
/-
  The reference program's result, read index by index, is the specification's function of its arguments.
-/
import proofs.«138020_j64158221467860_2_alg».proof.Proof.RefSoftmax

noncomputable section

namespace Cert.ReferenceIdeal.RefValue

open Idealize.ShloMosaic Idealize.ShloMosaic.ValueIdx Cert.ReferenceIdeal Cert.Attn

variable (x0 : (⟨S8x1x512x1024, .f32⟩ : BufTy).Contents (Elt Ideal)) (x1 : (⟨S8x1x1x512, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-- The context array at (b, n, i, d): head n's weighted sum of the value rows. -/
theorem v32_at (b : Fin 8) (n : Fin 16) (i : Fin 512) (d : Fin 64) :
    Read.val_main_v32 (F := Ideal) x0 x1 x2 x3 x4 x5 x6 x7 (ix4 b n i d)
      = head (Qh x0 x2 x3 x4 x5 x6 x7 b n) (Kh x0 x2 x3 x4 x5 x6 x7 b n) (Vh x0 x2 x3 x4 x5 x6 x7 b n) (Mk x1 b) i d := by
  rw [Read.val_main_v32_apply]
  show _ = ∑ j : Fin 512, prob (Sc x0 x1 x2 x3 x4 x5 x6 x7 b n) i j * Vh x0 x2 x3 x4 x5 x6 x7 b n j d
  refine Finset.sum_congr rfl fun k _ => congrArg₂ (· * ·) ?_ ?_
  · refine Eq.trans (congrArg _ ?_) (v31_at x0 x1 x2 x3 x4 x5 x6 x7 b n i k)
    funext a; apply Fin.ext
    match a with
    | ⟨0, _⟩ => rfl
    | ⟨1, _⟩ => rfl
    | ⟨2, _⟩ => rfl
    | ⟨3, _⟩ => rfl
  · refine Eq.trans (congrArg _ ?_) (v15_at x0 x2 x3 x4 x5 x6 x7 b n k d)
    funext a; apply Fin.ext
    match a with
    | ⟨0, _⟩ => rfl
    | ⟨1, _⟩ => rfl
    | ⟨2, _⟩ => rfl
    | ⟨3, _⟩ => rfl

/-- The result array is the specification's function of the activations, the mask, the joined weights and the
    joined biases: entry (b, 0, i, c) is head c / 64 at column c % 64. -/
theorem result_eq :
    Read.val_main_v34 (F := Ideal) x0 x1 x2 x3 x4 x5 x6 x7
      = G x0 x1 (Read.val_main_v1 (F := Ideal) x2 x4 x6) (Read.val_main_v2 (F := Ideal) x3 x5 x7) := by
  funext i
  rw [Read.val_main_v34_apply, Read.val_main_v33_apply]
  have h0 : (i 0).val < 8 := (i 0).isLt
  have h1 : (i 1).val < 1 := (i 1).isLt
  have h2 : (i 2).val < 512 := (i 2).isLt
  have h3 : (i 3).val < 1024 := (i 3).isLt
  refine Eq.trans (congrArg _ ?_)
    (v32_at x0 x1 x2 x3 x4 x5 x6 x7 (i 0) ⟨(i 3).val / 64, by omega⟩ (i 2) ⟨(i 3).val % 64, Nat.mod_lt _ (by decide)⟩)
  funext a; apply Fin.ext
  match a with
  | ⟨0, _⟩ => show ((((i 0).val * 1 + (i 1).val) * 512 + (i 2).val) * 1024 + (i 3).val) / 524288 = (i 0).val; omega
  | ⟨1, _⟩ => show ((((i 0).val * 1 + (i 1).val) * 512 + (i 2).val) * 1024 + (i 3).val) / 64 % 16 = (i 3).val / 64; omega
  | ⟨2, _⟩ => show ((((i 0).val * 1 + (i 1).val) * 512 + (i 2).val) * 1024 + (i 3).val) / 1024 % 512 = (i 2).val; omega
  | ⟨3, _⟩ => show ((((i 0).val * 1 + (i 1).val) * 512 + (i 2).val) * 1024 + (i 3).val) % 64 = (i 3).val % 64; omega

end Cert.ReferenceIdeal.RefValue

end
-- ==== Proof.lean ====
/-
  The certificate.  The kernel computes multi-head attention for 8 batch rows: per row it forms the fused
  query/key/value projection x · [Wq | Wk | Wv] + [bq | bk | bv] once, keeps it in a scratch, and then, two heads
  at a time, takes 128-column slabs of queries, keys and values, forms the scores (Q Kᵀ)/8 + mask, normalises each
  row by the soft maximum exp (s − max s) / ∑ exp (s − max s), and multiplies by the values, storing the two heads'
  contexts side by side.  The reference computes the same projection for all rows at once, splits it into heads
  by reshaping and transposing, and applies the same score, soft maximum and product.  Read over the extended
  reals the two are the same function of the arguments, entry by entry: head n, column d of the reference is
  column 64 n + d of the kernel's row, which trip n / 2 of the kernel's loop writes at column 64 (n % 2) + d of its
  slab.  No arithmetic law is needed beyond the identity of the two sums; nothing depends on the inputs being finite.

  The three frame properties: the two kernel programs by the pipeline's launch theorem over a symbolic run of one
  grid point (the loop by its invariant), the reference by its run as a sequence of host lines.  The idealization
  rewrote nothing, so the preservation claim has no conjunct.
-/
import proofs.«138020_j64158221467860_2_alg».proof.Defs
import proofs.«138020_j64158221467860_2_alg».proof.Proof.Gen.Kernel
import proofs.«138020_j64158221467860_2_alg».proof.Proof.Gen.KernelIdeal
import proofs.«138020_j64158221467860_2_alg».proof.Proof.Gen.ReferenceIdeal
import proofs.«138020_j64158221467860_2_alg».proof.Proof.Gen.Pre_finite_inputs
import proofs.«138020_j64158221467860_2_alg».proof.Proof.KFrame
import proofs.«138020_j64158221467860_2_alg».proof.Proof.KIFinal
import proofs.«138020_j64158221467860_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite: nothing to preserve. -/
theorem preserves : Cert.preserves_Kernel_KernelIdeal := trivial

/-- Both programs end with their result at the specification's function of the arguments: the kernel by its value
    run, the reference by its run read stage by stage; on agreeing arguments the two terms are one. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (Cert.KernelIdeal.Hand.wcat (F := Ideal) m c) (Cert.KernelIdeal.Hand.bcat (F := Ideal) m c),
    Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v34_eq, Cert.ReferenceIdeal.RefValue.result_eq]
  unfold Cert.ReferenceIdeal.Read.val_main_v1 Cert.ReferenceIdeal.Read.val_main_v2
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
